-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x32 : Shape := ⟨2, ![200000, 32]⟩
abbrev S100000x64 : Shape := ⟨2, ![100000, 64]⟩
abbrev S50000x64 : Shape := ⟨2, ![50000, 64]⟩
abbrev S32x64 : Shape := ⟨2, ![32, 64]⟩
abbrev S4x64 : Shape := ⟨2, ![4, 64]⟩
abbrev S64x64 : Shape := ⟨2, ![64, 64]⟩
abbrev S192x64 : Shape := ⟨2, ![192, 64]⟩
abbrev S50000x16 : Shape := ⟨2, ![50000, 16]⟩
abbrev S_ : Shape := ⟨0, ![]⟩

class Facts : Prop where
  bcast_S_S200000x32 : S_.BroadcastsInDim S200000x32 (![] : Fin 0 → Fin S200000x32.rank)
  reducesTo_S200000x32_S_d0_1 : S200000x32.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S50000x64 : S_.BroadcastsInDim S50000x64 (![] : Fin 0 → Fin S50000x64.rank)
  reducesTo_S50000x64_S_d0_1 : S50000x64.ReducesTo [0, 1] S_
  bcast_S_S32x64 : S_.BroadcastsInDim S32x64 (![] : Fin 0 → Fin S32x64.rank)
  reducesTo_S32x64_S_d0_1 : S32x64.ReducesTo [0, 1] S_
  bcast_S_S4x64 : S_.BroadcastsInDim S4x64 (![] : Fin 0 → Fin S4x64.rank)
  reducesTo_S4x64_S_d0_1 : S4x64.ReducesTo [0, 1] S_
  bcast_S_S64x64 : S_.BroadcastsInDim S64x64 (![] : Fin 0 → Fin S64x64.rank)
  reducesTo_S64x64_S_d0_1 : S64x64.ReducesTo [0, 1] S_
  bcast_S_S192x64 : S_.BroadcastsInDim S192x64 (![] : Fin 0 → Fin S192x64.rank)
  reducesTo_S192x64_S_d0_1 : S192x64.ReducesTo [0, 1] S_

variable [Facts]

def fn_part2 {F : FTy → Type} [FloatOps F] (main_arg7 : FVec F S192x64 .f32) (main_arg8 : FVec F S4x64 .f32) (main_v33 : IVec S_ 1) : IVec S_ 1 :=
  let main_v34 : FVec F S192x64 .f32 := Host.absf main_arg7
  let main_cst_12 : FVec F S_ .f32 := constant S_ .f32 0x7F800000#32
  let main_v35 : FVec F S192x64 .f32 := broadcastInDim S192x64 ![] bcast_S_S192x64 main_cst_12
  let main_v36 : IVec S192x64 1 := cmpf .olt main_v34 main_v35
  let main_c_13 : IVec S_ 1 := constantI S_ 1 1#1
  let main_v37 : IVec S_ 1 := (fun x v => Host.reduce IntOp.andi x v reducesTo_S192x64_S_d0_1 h_S_) main_v36 main_c_13
  let main_v38 : IVec S_ 1 := andi main_v33 main_v37
  let main_v39 : FVec F S4x64 .f32 := Host.absf main_arg8
  let main_cst_14 : FVec F S_ .f32 := constant S_ .f32 0x7F800000#32
  let main_v40 : FVec F S4x64 .f32 := broadcastInDim S4x64 ![] bcast_S_S4x64 main_cst_14
  let main_v41 : IVec S4x64 1 := cmpf .olt main_v39 main_v40
  let main_c_15 : IVec S_ 1 := constantI S_ 1 1#1
  let main_v42 : IVec S_ 1 := (fun x v => Host.reduce IntOp.andi x v reducesTo_S4x64_S_d0_1 h_S_) main_v41 main_c_15
  let main_v43 : IVec S_ 1 := andi main_v38 main_v42
  main_v43

def fn_part1 {F : FTy → Type} [FloatOps F] (main_arg4 : FVec F S4x64 .f32) (main_arg5 : FVec F S64x64 .f32) (main_arg6 : FVec F S4x64 .f32) (main_arg7 : FVec F S192x64 .f32) (main_arg8 : FVec F S4x64 .f32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S4x64 .f32 := Host.absf main_arg4
  let main_cst_6 : FVec F S_ .f32 := constant S_ .f32 0x7F800000#32
  let main_v20 : FVec F S4x64 .f32 := broadcastInDim S4x64 ![] bcast_S_S4x64 main_cst_6
  let main_v21 : IVec S4x64 1 := cmpf .olt main_v19 main_v20
  let main_c_7 : IVec S_ 1 := constantI S_ 1 1#1
  let main_v22 : IVec S_ 1 := (fun x v => Host.reduce IntOp.andi x v reducesTo_S4x64_S_d0_1 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S4x64 .f32 := Host.absf main_arg6
  let main_cst_10 : FVec F S_ .f32 := constant S_ .f32 0x7F800000#32
  let main_v30 : FVec F S4x64 .f32 := broadcastInDim S4x64 ![] bcast_S_S4x64 main_cst_10
  let main_v31 : IVec S4x64 1 := cmpf .olt main_v29 main_v30
  let main_c_11 : IVec S_ 1 := constantI S_ 1 1#1
  let main_v32 : IVec S_ 1 := (fun x v => Host.reduce IntOp.andi x v reducesTo_S4x64_S_d0_1 h_S_) main_v31 main_c_11
  let main_v33 : IVec S_ 1 := andi main_v28 main_v32
  fn_part2 (F := F) main_arg7 main_arg8 main_v33

def fn {F : FTy → Type} [FloatOps F] (main_arg0 : FVec F S200000x32 .f32) (main_arg1 : FVec F S100000x64 .f32) (main_arg2 : FVec F S50000x64 .f32) (main_arg3 : FVec F S32x64 .f32) (main_arg4 : FVec F S4x64 .f32) (main_arg5 : FVec F S64x64 .f32) (main_arg6 : FVec F S4x64 .f32) (main_arg7 : FVec F S192x64 .f32) (main_arg8 : FVec F S4x64 .f32) (main_arg9 : IVec S50000x16 32) (main_arg10 : IVec S50000x16 32) : IVec S_ 1 :=
  let main_v0 : FVec F S200000x32 .f32 := Host.absf main_arg0
  let main_cst : FVec F S_ .f32 := constant S_ .f32 0x7F800000#32
  let main_v1 : FVec F S200000x32 .f32 := broadcastInDim S200000x32 ![] bcast_S_S200000x32 main_cst
  let main_v2 : IVec S200000x32 1 := cmpf .olt main_v0 main_v1
  let main_c : IVec S_ 1 := constantI S_ 1 1#1
  let main_v3 : IVec S_ 1 := (fun x v => Host.reduce IntOp.andi x v reducesTo_S200000x32_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S50000x64 .f32 := Host.absf main_arg2
  let main_cst_2 : FVec F S_ .f32 := constant S_ .f32 0x7F800000#32
  let main_v10 : FVec F S50000x64 .f32 := broadcastInDim S50000x64 ![] bcast_S_S50000x64 main_cst_2
  let main_v11 : IVec S50000x64 1 := cmpf .olt main_v9 main_v10
  let main_c_3 : IVec S_ 1 := constantI S_ 1 1#1
  let main_v12 : IVec S_ 1 := (fun x v => Host.reduce IntOp.andi x v reducesTo_S50000x64_S_d0_1 h_S_) main_v11 main_c_3
  let main_v13 : IVec S_ 1 := andi main_v8 main_v12
  let main_v14 : FVec F S32x64 .f32 := Host.absf main_arg3
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg4 main_arg5 main_arg6 main_arg7 main_arg8 main_v13 main_v16
-- ==== Kernel.lean ====
abbrev S200000x32 : Shape := ⟨2, ![200000, 32]⟩
abbrev S100000x64 : Shape := ⟨2, ![100000, 64]⟩
abbrev S50000x64 : Shape := ⟨2, ![50000, 64]⟩
abbrev S32x64 : Shape := ⟨2, ![32, 64]⟩
abbrev S4x64 : Shape := ⟨2, ![4, 64]⟩
abbrev S64x64 : Shape := ⟨2, ![64, 64]⟩
abbrev S192x64 : Shape := ⟨2, ![192, 64]⟩
abbrev S50000x16 : Shape := ⟨2, ![50000, 16]⟩
abbrev S_ : Shape := ⟨0, ![]⟩
abbrev S50000x16x1 : Shape := ⟨3, ![50000, 16, 1]⟩
abbrev S50000x16x32 : Shape := ⟨3, ![50000, 16, 32]⟩
abbrev S50000x16x64 : Shape := ⟨3, ![50000, 16, 64]⟩
abbrev S1000x64 : Shape := ⟨2, ![1000, 64]⟩
abbrev S1000x16x32 : Shape := ⟨3, ![1000, 16, 32]⟩
abbrev S1000x16x64 : Shape := ⟨3, ![1000, 16, 64]⟩
abbrev S1000x1x32 : Shape := ⟨3, ![1000, 1, 32]⟩
abbrev S1000x32 : Shape := ⟨2, ![1000, 32]⟩
abbrev S1x64 : Shape := ⟨2, ![1, 64]⟩
abbrev S64 : Shape := ⟨1, ![64]⟩
abbrev S1000x1x64 : Shape := ⟨3, ![1000, 1, 64]⟩
abbrev S1000x192 : Shape := ⟨2, ![1000, 192]⟩

abbrev nBuf : Space → Nat
  | .hbm => 30
  | .vmem => 14
  | .smem => 0
  | _ => 0

abbrev bufTy : (tb : Table) → Fin (tcTables nBuf tb) → BufTy
  | .hbm, ⟨0, _⟩ => ⟨S200000x32, .f32⟩
  | .hbm, ⟨1, _⟩ => ⟨S100000x64, .f32⟩
  | .hbm, ⟨2, _⟩ => ⟨S50000x64, .f32⟩
  | .hbm, ⟨3, _⟩ => ⟨S32x64, .f32⟩
  | .hbm, ⟨4, _⟩ => ⟨S4x64, .f32⟩
  | .hbm, ⟨5, _⟩ => ⟨S64x64, .f32⟩
  | .hbm, ⟨6, _⟩ => ⟨S4x64, .f32⟩
  | .hbm, ⟨7, _⟩ => ⟨S192x64, .f32⟩
  | .hbm, ⟨8, _⟩ => ⟨S4x64, .f32⟩
  | .hbm, ⟨9, _⟩ => ⟨S50000x16, .i32⟩
  | .hbm, ⟨10, _⟩ => ⟨S50000x16, .i32⟩
  | .hbm, ⟨11, _⟩ => ⟨S_, .i32⟩
  | .hbm, ⟨12, _⟩ => ⟨S50000x16, .i32⟩
  | .hbm, ⟨13, _⟩ => ⟨S50000x16, .i1⟩
  | .hbm, ⟨14, _⟩ => ⟨S_, .i32⟩
  | .hbm, ⟨15, _⟩ => ⟨S50000x16, .i32⟩
  | .hbm, ⟨16, _⟩ => ⟨S50000x16, .i32⟩
  | .hbm, ⟨17, _⟩ => ⟨S50000x16, .i32⟩
  | .hbm, ⟨18, _⟩ => ⟨S50000x16x1, .i32⟩
  | .hbm, ⟨19, _⟩ => ⟨S50000x16x32, .f32⟩
  | .hbm, ⟨20, _⟩ => ⟨S_, .i32⟩
  | .hbm, ⟨21, _⟩ => ⟨S50000x16, .i32⟩
  | .hbm, ⟨22, _⟩ => ⟨S50000x16, .i1⟩
  | .hbm, ⟨23, _⟩ => ⟨S_, .i32⟩
  | .hbm, ⟨24, _⟩ => ⟨S50000x16, .i32⟩
  | .hbm, ⟨25, _⟩ => ⟨S50000x16, .i32⟩
  | .hbm, ⟨26, _⟩ => ⟨S50000x16, .i32⟩
  | .hbm, ⟨27, _⟩ => ⟨S50000x16x1, .i32⟩
  | .hbm, ⟨28, _⟩ => ⟨S50000x16x64, .f32⟩
  | .hbm, ⟨29, _⟩ => ⟨S50000x64, .f32⟩
  | .local _ .vmem, ⟨0, _⟩ => ⟨S1000x64, .f32⟩
  | .local _ .vmem, ⟨1, _⟩ => ⟨S1000x64, .f32⟩
  | .local _ .vmem, ⟨2, _⟩ => ⟨S1000x16x32, .f32⟩
  | .local _ .vmem, ⟨3, _⟩ => ⟨S1000x16x32, .f32⟩
  | .local _ .vmem, ⟨4, _⟩ => ⟨S1000x16x64, .f32⟩
  | .local _ .vmem, ⟨5, _⟩ => ⟨S1000x16x64, .f32⟩
  | .local _ .vmem, ⟨6, _⟩ => ⟨S32x64, .f32⟩
  | .local _ .vmem, ⟨7, _⟩ => ⟨S4x64, .f32⟩
  | .local _ .vmem, ⟨8, _⟩ => ⟨S64x64, .f32⟩
  | .local _ .vmem, ⟨9, _⟩ => ⟨S4x64, .f32⟩
  | .local _ .vmem, ⟨10, _⟩ => ⟨S192x64, .f32⟩
  | .local _ .vmem, ⟨11, _⟩ => ⟨S4x64, .f32⟩
  | .local _ .vmem, ⟨12, _⟩ => ⟨S1000x64, .f32⟩
  | .local _ .vmem, ⟨13, _⟩ => ⟨S1000x64, .f32⟩
  | _, _ => ⟨S200000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x16x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x16x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S192x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S50000x16 : S_.BroadcastsInDim S50000x16 (![] : Fin 0 → Fin S50000x16.rank)
  bcast_S50000x16_S50000x16x1_0_1 : S50000x16.BroadcastsInDim S50000x16x1 (![0, 1] : Fin 2 → Fin S50000x16x1.rank)
  inb_S1000x16x32_S1000x16x32_0_0_0 : ∀ a, (![0, 0, 0] : Fin 3 → Nat) a + S1000x16x32.size a ≤ S1000x16x32.size a
  h_S1000x16x32 : 0 < S1000x16x32.numel
  shapeCasts_S1000x16x32_S1000x16x32 : S1000x16x32.ShapeCasts S1000x16x32
  inb_S32x64_S32x64_0_0 : ∀ a, (![0, 0] : Fin 2 → Nat) a + S32x64.size a ≤ S32x64.size a
  h_S32x64 : 0 < S32x64.numel
  bitsLt_bf16_f32 : FTy.bits .bf16 < FTy.bits .f32
  inb_S4x64_S4x64_0_0 : ∀ a, (![0, 0] : Fin 2 → Nat) a + S4x64.size a ≤ S4x64.size a
  h_S4x64 : 0 < S4x64.numel
  slices_S1000x16x32_o0_0_0_S1000x1x32 : S1000x16x32.Slices ![0, 0, 0] S1000x1x32
  shapeCasts_S1000x1x32_S1000x32 : S1000x1x32.ShapeCasts S1000x32
  slices_S4x64_o0_0_S1x64 : S4x64.Slices ![0, 0] S1x64
  shapeCasts_S1x64_S64 : S1x64.ShapeCasts S64
  slices_S4x64_o1_0_S1x64 : S4x64.Slices ![1, 0] S1x64
  slices_S4x64_o2_0_S1x64 : S4x64.Slices ![2, 0] S1x64
  slices_S4x64_o3_0_S1x64 : S4x64.Slices ![3, 0] S1x64
  shapeCasts_S64_S1x64 : S64.ShapeCasts S1x64
  broadcasts_S1x64_S1000x64 : S1x64.Broadcasts S1000x64
  slices_S1000x16x32_o0_1_0_S1000x1x32 : S1000x16x32.Slices ![0, 1, 0] S1000x1x32
  slices_S1000x16x32_o0_2_0_S1000x1x32 : S1000x16x32.Slices ![0, 2, 0] S1000x1x32
  slices_S1000x16x32_o0_3_0_S1000x1x32 : S1000x16x32.Slices ![0, 3, 0] S1000x1x32
  slices_S1000x16x32_o0_4_0_S1000x1x32 : S1000x16x32.Slices ![0, 4, 0] S1000x1x32
  slices_S1000x16x32_o0_5_0_S1000x1x32 : S1000x16x32.Slices ![0, 5, 0] S1000x1x32
  slices_S1000x16x32_o0_6_0_S1000x1x32 : S1000x16x32.Slices ![0, 6, 0] S1000x1x32
  slices_S1000x16x32_o0_7_0_S1000x1x32 : S1000x16x32.Slices ![0, 7, 0] S1000x1x32
  slices_S1000x16x32_o0_8_0_S1000x1x32 : S1000x16x32.Slices ![0, 8, 0] S1000x1x32
  slices_S1000x16x32_o0_9_0_S1000x1x32 : S1000x16x32.Slices ![0, 9, 0] S1000x1x32
  slices_S1000x16x32_o0_10_0_S1000x1x32 : S1000x16x32.Slices ![0, 10, 0] S1000x1x32
  slices_S1000x16x32_o0_11_0_S1000x1x32 : S1000x16x32.Slices ![0, 11, 0] S1000x1x32
  slices_S1000x16x32_o0_12_0_S1000x1x32 : S1000x16x32.Slices ![0, 12, 0] S1000x1x32
  slices_S1000x16x32_o0_13_0_S1000x1x32 : S1000x16x32.Slices ![0, 13, 0] S1000x1x32
  slices_S1000x16x32_o0_14_0_S1000x1x32 : S1000x16x32.Slices ![0, 14, 0] S1000x1x32
  slices_S1000x16x32_o0_15_0_S1000x1x32 : S1000x16x32.Slices ![0, 15, 0] S1000x1x32
  inb_S1000x16x64_S1000x16x64_0_0_0 : ∀ a, (![0, 0, 0] : Fin 3 → Nat) a + S1000x16x64.size a ≤ S1000x16x64.size a
  h_S1000x16x64 : 0 < S1000x16x64.numel
  shapeCasts_S1000x16x64_S1000x16x64 : S1000x16x64.ShapeCasts S1000x16x64
  inb_S64x64_S64x64_0_0 : ∀ a, (![0, 0] : Fin 2 → Nat) a + S64x64.size a ≤ S64x64.size a
  h_S64x64 : 0 < S64x64.numel
  slices_S1000x16x64_o0_0_0_S1000x1x64 : S1000x16x64.Slices ![0, 0, 0] S1000x1x64
  shapeCasts_S1000x1x64_S1000x64 : S1000x1x64.ShapeCasts S1000x64
  slices_S1000x16x64_o0_1_0_S1000x1x64 : S1000x16x64.Slices ![0, 1, 0] S1000x1x64
  slices_S1000x16x64_o0_2_0_S1000x1x64 : S1000x16x64.Slices ![0, 2, 0] S1000x1x64
  slices_S1000x16x64_o0_3_0_S1000x1x64 : S1000x16x64.Slices ![0, 3, 0] S1000x1x64
  slices_S1000x16x64_o0_4_0_S1000x1x64 : S1000x16x64.Slices ![0, 4, 0] S1000x1x64
  slices_S1000x16x64_o0_5_0_S1000x1x64 : S1000x16x64.Slices ![0, 5, 0] S1000x1x64
  slices_S1000x16x64_o0_6_0_S1000x1x64 : S1000x16x64.Slices ![0, 6, 0] S1000x1x64
  slices_S1000x16x64_o0_7_0_S1000x1x64 : S1000x16x64.Slices ![0, 7, 0] S1000x1x64
  slices_S1000x16x64_o0_8_0_S1000x1x64 : S1000x16x64.Slices ![0, 8, 0] S1000x1x64
  slices_S1000x16x64_o0_9_0_S1000x1x64 : S1000x16x64.Slices ![0, 9, 0] S1000x1x64
  slices_S1000x16x64_o0_10_0_S1000x1x64 : S1000x16x64.Slices ![0, 10, 0] S1000x1x64
  slices_S1000x16x64_o0_11_0_S1000x1x64 : S1000x16x64.Slices ![0, 11, 0] S1000x1x64
  slices_S1000x16x64_o0_12_0_S1000x1x64 : S1000x16x64.Slices ![0, 12, 0] S1000x1x64
  slices_S1000x16x64_o0_13_0_S1000x1x64 : S1000x16x64.Slices ![0, 13, 0] S1000x1x64
  slices_S1000x16x64_o0_14_0_S1000x1x64 : S1000x16x64.Slices ![0, 14, 0] S1000x1x64
  slices_S1000x16x64_o0_15_0_S1000x1x64 : S1000x16x64.Slices ![0, 15, 0] S1000x1x64
  inb_S1000x64_S1000x64_0_0 : ∀ a, (![0, 0] : Fin 2 → Nat) a + S1000x64.size a ≤ S1000x64.size a
  h_S1000x64 : 0 < S1000x64.numel
  concatenates_S1000x64_S1000x64_S1000x64_S1000x192_d1 : Shape.Concatenates [S1000x64, S1000x64, S1000x64] S1000x192 1
  inb_S192x64_S192x64_0_0 : ∀ a, (![0, 0] : Fin 2 → Nat) a + S192x64.size a ≤ S192x64.size a
  h_S192x64 : 0 < S192x64.numel
  gather_S200000x32_S50000x16x1_S50000x16x32_2_0_n_n_0_2_132_wf : GatherDims.WF S200000x32 S50000x16x1 S50000x16x32 [2] [0] [] [0] [] 2 ![1, 32]
  gather_S100000x64_S50000x16x1_S50000x16x64_2_0_n_n_0_2_164_wf : GatherDims.WF S100000x64 S50000x16x1 S50000x16x64 [2] [0] [] [0] [] 2 ![1, 64]
  dot_S1000x32_S32x64_S1000x64_1_0_0_1_n_n_wf : DotDims.WF S1000x32 S32x64 S1000x64 [1] [0] [0] [1] [] []
  dot_S1000x64_S64x64_S1000x64_1_0_0_1_n_n_wf : DotDims.WF S1000x64 S64x64 S1000x64 [1] [0] [0] [1] [] []
  dot_S1000x192_S192x64_S1000x64_1_0_0_1_n_n_wf : DotDims.WF S1000x192 S192x64 S1000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x64.size a ≤ S50000x64.size a
  hwx0_0 : ∀ i : grid0.Coords, EltTy.bits .f32 = 32 ∨ (Rect.block (s := S50000x64) S1000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x16x32.size a ≤ S50000x16x32.size a
  hwx0_1 : ∀ i : grid0.Coords, EltTy.bits .f32 = 32 ∨ (Rect.block (s := S50000x16x32) S1000x16x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x16x64.size a ≤ S50000x16x64.size a
  hwx0_2 : ∀ i : grid0.Coords, EltTy.bits .f32 = 32 ∨ (Rect.block (s := S50000x16x64) S1000x16x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x64.size a ≤ S32x64.size a
  hwx0_3 : ∀ i : grid0.Coords, EltTy.bits .f32 = 32 ∨ (Rect.block (s := S32x64) S32x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x64.size a ≤ S4x64.size a
  hwx0_4 : ∀ i : grid0.Coords, EltTy.bits .f32 = 32 ∨ (Rect.block (s := S4x64) S4x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4x64.size a ≤ S4x64.size a
  hwx0_6 : ∀ i : grid0.Coords, EltTy.bits .f32 = 32 ∨ (Rect.block (s := S4x64) S4x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S192x64.size a ≤ S192x64.size a
  hwx0_7 : ∀ i : grid0.Coords, EltTy.bits .f32 = 32 ∨ (Rect.block (s := S192x64) S192x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S4x64.size a ≤ S4x64.size a
  hwx0_8 : ∀ i : grid0.Coords, EltTy.bits .f32 = 32 ∨ (Rect.block (s := S4x64) S4x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1000x64.size a ≤ S50000x64.size a
  hwx0_9 : ∀ i : grid0.Coords, EltTy.bits .f32 = 32 ∨ (Rect.block (s := S50000x64) S1000x64.size (cc0_transform_9 i) (hinb0_9 i)).WholeWords (EltTy.packing .f32)

variable [Facts₀]

def gather_S200000x32_S50000x16x1_S50000x16x32_2_0_n_n_0_2_132 : GatherDims S200000x32 S50000x16x1 S50000x16x32 where
  offsetDims := [2]
  collapsedSliceDims := [0]
  operandBatchingDims := []
  startIndicesBatchingDims := []
  startIndexMap := [0]
  indexVectorDim := 2
  sliceSizes := ![1, 32]
  wf := gather_S200000x32_S50000x16x1_S50000x16x32_2_0_n_n_0_2_132_wf
def gather_S100000x64_S50000x16x1_S50000x16x64_2_0_n_n_0_2_164 : GatherDims S100000x64 S50000x16x1 S50000x16x64 where
  offsetDims := [2]
  collapsedSliceDims := [0]
  operandBatchingDims := []
  startIndicesBatchingDims := []
  startIndexMap := [0]
  indexVectorDim := 2
  sliceSizes := ![1, 64]
  wf := gather_S100000x64_S50000x16x1_S50000x16x64_2_0_n_n_0_2_164_wf
def dot_S1000x32_S32x64_S1000x64_1_0_0_1_n_n : DotDims S1000x32 S32x64 S1000x64 where
  lhsContracting := [1]
  rhsContracting := [0]
  lhsNonContracting := [0]
  rhsNonContracting := [1]
  lhsBatch := []
  rhsBatch := []
  wf := dot_S1000x32_S32x64_S1000x64_1_0_0_1_n_n_wf
def dot_S1000x64_S64x64_S1000x64_1_0_0_1_n_n : DotDims S1000x64 S64x64 S1000x64 where
  lhsContracting := [1]
  rhsContracting := [0]
  lhsNonContracting := [0]
  rhsNonContracting := [1]
  lhsBatch := []
  rhsBatch := []
  wf := dot_S1000x64_S64x64_S1000x64_1_0_0_1_n_n_wf
def dot_S1000x192_S192x64_S1000x64_1_0_0_1_n_n : DotDims S1000x192 S192x64 S1000x64 where
  lhsContracting := [1]
  rhsContracting := [0]
  lhsNonContracting := [0]
  rhsNonContracting := [1]
  lhsBatch := []
  rhsBatch := []
  wf := dot_S1000x192_S192x64_S1000x64_1_0_0_1_n_n_wf

abbrev win0_0 : Pipeline.Window sig grid0 :=
  Pipeline.Window.ofSpec (Memref.whole main_arg2) S1000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1000x16x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1000x16x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S4x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S4x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S192x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S4x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v14) S1000x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S200000x32 : Shape := ⟨2, ![200000, 32]⟩
abbrev S100000x64 : Shape := ⟨2, ![100000, 64]⟩
abbrev S50000x64 : Shape := ⟨2, ![50000, 64]⟩
abbrev S32x64 : Shape := ⟨2, ![32, 64]⟩
abbrev S4x64 : Shape := ⟨2, ![4, 64]⟩
abbrev S64x64 : Shape := ⟨2, ![64, 64]⟩
abbrev S192x64 : Shape := ⟨2, ![192, 64]⟩
abbrev S50000x16 : Shape := ⟨2, ![50000, 16]⟩
abbrev S_ : Shape := ⟨0, ![]⟩
abbrev S50000x16x1 : Shape := ⟨3, ![50000, 16, 1]⟩
abbrev S50000x16x32 : Shape := ⟨3, ![50000, 16, 32]⟩
abbrev S50000x16x64 : Shape := ⟨3, ![50000, 16, 64]⟩
abbrev S1x64 : Shape := ⟨2, ![1, 64]⟩
abbrev S64 : Shape := ⟨1, ![64]⟩
abbrev S1x1x64 : Shape := ⟨3, ![1, 1, 64]⟩
abbrev S50000x192 : Shape := ⟨2, ![50000, 192]⟩

abbrev nBuf : Space → Nat
  | .hbm => 118
  | .vmem => 0
  | .smem => 0
  | _ => 0

abbrev bufTy : (tb : Table) → Fin (tcTables nBuf tb) → BufTy
  | .hbm, ⟨0, _⟩ => ⟨S200000x32, .f32⟩
  | .hbm, ⟨1, _⟩ => ⟨S100000x64, .f32⟩
  | .hbm, ⟨2, _⟩ => ⟨S50000x64, .f32⟩
  | .hbm, ⟨3, _⟩ => ⟨S32x64, .f32⟩
  | .hbm, ⟨4, _⟩ => ⟨S4x64, .f32⟩
  | .hbm, ⟨5, _⟩ => ⟨S64x64, .f32⟩
  | .hbm, ⟨6, _⟩ => ⟨S4x64, .f32⟩
  | .hbm, ⟨7, _⟩ => ⟨S192x64, .f32⟩
  | .hbm, ⟨8, _⟩ => ⟨S4x64, .f32⟩
  | .hbm, ⟨9, _⟩ => ⟨S50000x16, .i32⟩
  | .hbm, ⟨10, _⟩ => ⟨S50000x16, .i32⟩
  | .hbm, ⟨11, _⟩ => ⟨S_, .i32⟩
  | .hbm, ⟨12, _⟩ => ⟨S50000x16, .i32⟩
  | .hbm, ⟨13, _⟩ => ⟨S50000x16, .i1⟩
  | .hbm, ⟨14, _⟩ => ⟨S_, .i32⟩
  | .hbm, ⟨15, _⟩ => ⟨S50000x16, .i32⟩
  | .hbm, ⟨16, _⟩ => ⟨S50000x16, .i32⟩
  | .hbm, ⟨17, _⟩ => ⟨S50000x16, .i32⟩
  | .hbm, ⟨18, _⟩ => ⟨S50000x16x1, .i32⟩
  | .hbm, ⟨19, _⟩ => ⟨S50000x16x32, .f32⟩
  | .hbm, ⟨20, _⟩ => ⟨S50000x16x64, .f32⟩
  | .hbm, ⟨21, _⟩ => ⟨S1x64, .f32⟩
  | .hbm, ⟨22, _⟩ => ⟨S64, .f32⟩
  | .hbm, ⟨23, _⟩ => ⟨S1x64, .f32⟩
  | .hbm, ⟨24, _⟩ => ⟨S64, .f32⟩
  | .hbm, ⟨25, _⟩ => ⟨S1x64, .f32⟩
  | .hbm, ⟨26, _⟩ => ⟨S64, .f32⟩
  | .hbm, ⟨27, _⟩ => ⟨S1x64, .f32⟩
  | .hbm, ⟨28, _⟩ => ⟨S64, .f32⟩
  | .hbm, ⟨29, _⟩ => ⟨S1x1x64, .f32⟩
  | .hbm, ⟨30, _⟩ => ⟨S50000x16x64, .f32⟩
  | .hbm, ⟨31, _⟩ => ⟨S50000x16x64, .f32⟩
  | .hbm, ⟨32, _⟩ => ⟨S_, .f32⟩
  | .hbm, ⟨33, _⟩ => ⟨S64, .f32⟩
  | .hbm, ⟨34, _⟩ => ⟨S64, .f32⟩
  | .hbm, ⟨35, _⟩ => ⟨S64, .f32⟩
  | .hbm, ⟨36, _⟩ => ⟨S1x1x64, .f32⟩
  | .hbm, ⟨37, _⟩ => ⟨S50000x16x64, .f32⟩
  | .hbm, ⟨38, _⟩ => ⟨S50000x16x64, .f32⟩
  | .hbm, ⟨39, _⟩ => ⟨S1x1x64, .f32⟩
  | .hbm, ⟨40, _⟩ => ⟨S50000x16x64, .f32⟩
  | .hbm, ⟨41, _⟩ => ⟨S50000x16x64, .f32⟩
  | .hbm, ⟨42, _⟩ => ⟨S1x1x64, .f32⟩
  | .hbm, ⟨43, _⟩ => ⟨S50000x16x64, .f32⟩
  | .hbm, ⟨44, _⟩ => ⟨S50000x16x64, .f32⟩
  | .hbm, ⟨45, _⟩ => ⟨S_, .f32⟩
  | .hbm, ⟨46, _⟩ => ⟨S50000x16x64, .f32⟩
  | .hbm, ⟨47, _⟩ => ⟨S50000x16x64, .f32⟩
  | .hbm, ⟨48, _⟩ => ⟨S_, .f32⟩
  | .hbm, ⟨49, _⟩ => ⟨S50000x64, .f32⟩
  | .hbm, ⟨50, _⟩ => ⟨S_, .i32⟩
  | .hbm, ⟨51, _⟩ => ⟨S50000x16, .i32⟩
  | .hbm, ⟨52, _⟩ => ⟨S50000x16, .i1⟩
  | .hbm, ⟨53, _⟩ => ⟨S_, .i32⟩
  | .hbm, ⟨54, _⟩ => ⟨S50000x16, .i32⟩
  | .hbm, ⟨55, _⟩ => ⟨S50000x16, .i32⟩
  | .hbm, ⟨56, _⟩ => ⟨S50000x16, .i32⟩
  | .hbm, ⟨57, _⟩ => ⟨S50000x16x1, .i32⟩
  | .hbm, ⟨58, _⟩ => ⟨S50000x16x64, .f32⟩
  | .hbm, ⟨59, _⟩ => ⟨S50000x16x64, .f32⟩
  | .hbm, ⟨60, _⟩ => ⟨S1x64, .f32⟩
  | .hbm, ⟨61, _⟩ => ⟨S64, .f32⟩
  | .hbm, ⟨62, _⟩ => ⟨S1x64, .f32⟩
  | .hbm, ⟨63, _⟩ => ⟨S64, .f32⟩
  | .hbm, ⟨64, _⟩ => ⟨S1x64, .f32⟩
  | .hbm, ⟨65, _⟩ => ⟨S64, .f32⟩
  | .hbm, ⟨66, _⟩ => ⟨S1x64, .f32⟩
  | .hbm, ⟨67, _⟩ => ⟨S64, .f32⟩
  | .hbm, ⟨68, _⟩ => ⟨S1x1x64, .f32⟩
  | .hbm, ⟨69, _⟩ => ⟨S50000x16x64, .f32⟩
  | .hbm, ⟨70, _⟩ => ⟨S50000x16x64, .f32⟩
  | .hbm, ⟨71, _⟩ => ⟨S_, .f32⟩
  | .hbm, ⟨72, _⟩ => ⟨S64, .f32⟩
  | .hbm, ⟨73, _⟩ => ⟨S64, .f32⟩
  | .hbm, ⟨74, _⟩ => ⟨S64, .f32⟩
  | .hbm, ⟨75, _⟩ => ⟨S1x1x64, .f32⟩
  | .hbm, ⟨76, _⟩ => ⟨S50000x16x64, .f32⟩
  | .hbm, ⟨77, _⟩ => ⟨S50000x16x64, .f32⟩
  | .hbm, ⟨78, _⟩ => ⟨S1x1x64, .f32⟩
  | .hbm, ⟨79, _⟩ => ⟨S50000x16x64, .f32⟩
  | .hbm, ⟨80, _⟩ => ⟨S50000x16x64, .f32⟩
  | .hbm, ⟨81, _⟩ => ⟨S1x1x64, .f32⟩
  | .hbm, ⟨82, _⟩ => ⟨S50000x16x64, .f32⟩
  | .hbm, ⟨83, _⟩ => ⟨S50000x16x64, .f32⟩
  | .hbm, ⟨84, _⟩ => ⟨S_, .f32⟩
  | .hbm, ⟨85, _⟩ => ⟨S50000x16x64, .f32⟩
  | .hbm, ⟨86, _⟩ => ⟨S50000x16x64, .f32⟩
  | .hbm, ⟨87, _⟩ => ⟨S_, .f32⟩
  | .hbm, ⟨88, _⟩ => ⟨S50000x64, .f32⟩
  | .hbm, ⟨89, _⟩ => ⟨S50000x192, .f32⟩
  | .hbm, ⟨90, _⟩ => ⟨S50000x64, .f32⟩
  | .hbm, ⟨91, _⟩ => ⟨S1x64, .f32⟩
  | .hbm, ⟨92, _⟩ => ⟨S64, .f32⟩
  | .hbm, ⟨93, _⟩ => ⟨S1x64, .f32⟩
  | .hbm, ⟨94, _⟩ => ⟨S64, .f32⟩
  | .hbm, ⟨95, _⟩ => ⟨S1x64, .f32⟩
  | .hbm, ⟨96, _⟩ => ⟨S64, .f32⟩
  | .hbm, ⟨97, _⟩ => ⟨S1x64, .f32⟩
  | .hbm, ⟨98, _⟩ => ⟨S64, .f32⟩
  | .hbm, ⟨99, _⟩ => ⟨S1x64, .f32⟩
  | .hbm, ⟨100, _⟩ => ⟨S50000x64, .f32⟩
  | .hbm, ⟨101, _⟩ => ⟨S50000x64, .f32⟩
  | .hbm, ⟨102, _⟩ => ⟨S_, .f32⟩
  | .hbm, ⟨103, _⟩ => ⟨S64, .f32⟩
  | .hbm, ⟨104, _⟩ => ⟨S64, .f32⟩
  | .hbm, ⟨105, _⟩ => ⟨S64, .f32⟩
  | .hbm, ⟨106, _⟩ => ⟨S1x64, .f32⟩
  | .hbm, ⟨107, _⟩ => ⟨S50000x64, .f32⟩
  | .hbm, ⟨108, _⟩ => ⟨S50000x64, .f32⟩
  | .hbm, ⟨109, _⟩ => ⟨S1x64, .f32⟩
  | .hbm, ⟨110, _⟩ => ⟨S50000x64, .f32⟩
  | .hbm, ⟨111, _⟩ => ⟨S50000x64, .f32⟩
  | .hbm, ⟨112, _⟩ => ⟨S1x64, .f32⟩
  | .hbm, ⟨113, _⟩ => ⟨S50000x64, .f32⟩
  | .hbm, ⟨114, _⟩ => ⟨S50000x64, .f32⟩
  | .hbm, ⟨115, _⟩ => ⟨S_, .f32⟩
  | .hbm, ⟨116, _⟩ => ⟨S50000x64, .f32⟩
  | .hbm, ⟨117, _⟩ => ⟨S50000x64, .f32⟩
  | _, _ => ⟨S200000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_cst_1 : Ref sig .tc := ⟨.hbm, 48, rfl⟩
abbrev main_v32 : Ref sig .tc := ⟨.hbm, 49, rfl⟩
abbrev main_c_2 : Ref sig .tc := ⟨.hbm, 50, rfl⟩
abbrev main_v33 : Ref sig .tc := ⟨.hbm, 51, rfl⟩
abbrev main_v34 : Ref sig .tc := ⟨.hbm, 52, rfl⟩
abbrev main_c_3 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_4 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_call1_cst : Ref sig .tc := ⟨.hbm, 84, rfl⟩
abbrev main_call1_v0 : Ref sig .tc := ⟨.hbm, 85, rfl⟩
abbrev main_v64 : Ref sig .tc := ⟨.hbm, 86, rfl⟩
abbrev main_cst_5 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_cst_6 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_call2_cst : Ref sig .tc := ⟨.hbm, 115, rfl⟩
abbrev main_call2_v0 : Ref sig .tc := ⟨.hbm, 116, rfl⟩
abbrev main_v91 : Ref sig .tc := ⟨.hbm, 117, rfl⟩

abbrev nD : Nat := 1
abbrev τ : Topo := Topo.v7x

variable {F : FTy → Type} [FloatOps F]

class Facts₀ : Prop where
  bcast_S_S50000x16 : S_.BroadcastsInDim S50000x16 (![] : Fin 0 → Fin S50000x16.rank)
  bcast_S50000x16_S50000x16x1_0_1 : S50000x16.BroadcastsInDim S50000x16x1 (![0, 1] : Fin 2 → Fin S50000x16x1.rank)
  slices_S4x64_S1x64_0_0 : S4x64.Slices ![0, 0] S1x64
  shapeCasts_S1x64_S64 : S1x64.ShapeCasts S64
  slices_S4x64_S1x64_1_0 : S4x64.Slices ![1, 0] S1x64
  slices_S4x64_S1x64_2_0 : S4x64.Slices ![2, 0] S1x64
  slices_S4x64_S1x64_3_0 : S4x64.Slices ![3, 0] S1x64
  bcast_S64_S1x1x64_2 : S64.BroadcastsInDim S1x1x64 (![2] : Fin 1 → Fin S1x1x64.rank)
  bcast_S1x1x64_S50000x16x64_0_1_2 : S1x1x64.BroadcastsInDim S50000x16x64 (![0, 1, 2] : Fin 3 → Fin S50000x16x64.rank)
  bcast_S_S64 : S_.BroadcastsInDim S64 (![] : Fin 0 → Fin S64.rank)
  bcast_S_S50000x16x64 : S_.BroadcastsInDim S50000x16x64 (![] : Fin 0 → Fin S50000x16x64.rank)
  reducesTo_S50000x16x64_S50000x64_d1 : S50000x16x64.ReducesTo [1] S50000x64
  h_S_ : 0 < S_.numel
  concatenates_S50000x64_S50000x64_S50000x64_S50000x192_d1 : Shape.Concatenates [S50000x64, S50000x64, S50000x64] S50000x192 1
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  gather_S200000x32_S50000x16x1_S50000x16x32_2_0_n_n_0_2_132_wf : GatherDims.WF S200000x32 S50000x16x1 S50000x16x32 [2] [0] [] [0] [] 2 ![1, 32]
  dot_S50000x16x32_S32x64_S50000x16x64_2_0_01_1_n_n_wf : DotDims.WF S50000x16x32 S32x64 S50000x16x64 [2] [0] [0, 1] [1] [] []
  gather_S100000x64_S50000x16x1_S50000x16x64_2_0_n_n_0_2_164_wf : GatherDims.WF S100000x64 S50000x16x1 S50000x16x64 [2] [0] [] [0] [] 2 ![1, 64]
  dot_S50000x16x64_S64x64_S50000x16x64_2_0_01_1_n_n_wf : DotDims.WF S50000x16x64 S64x64 S50000x16x64 [2] [0] [0, 1] [1] [] []
  dot_S50000x192_S192x64_S50000x64_1_0_0_1_n_n_wf : DotDims.WF S50000x192 S192x64 S50000x64 [1] [0] [0] [1] [] []

variable [Facts₀]

def gather_S200000x32_S50000x16x1_S50000x16x32_2_0_n_n_0_2_132 : GatherDims S200000x32 S50000x16x1 S50000x16x32 where
  offsetDims := [2]
  collapsedSliceDims := [0]
  operandBatchingDims := []
  startIndicesBatchingDims := []
  startIndexMap := [0]
  indexVectorDim := 2
  sliceSizes := ![1, 32]
  wf := gather_S200000x32_S50000x16x1_S50000x16x32_2_0_n_n_0_2_132_wf
def dot_S50000x16x32_S32x64_S50000x16x64_2_0_01_1_n_n : DotDims S50000x16x32 S32x64 S50000x16x64 where
  lhsContracting := [2]
  rhsContracting := [0]
  lhsNonContracting := [0, 1]
  rhsNonContracting := [1]
  lhsBatch := []
  rhsBatch := []
  wf := dot_S50000x16x32_S32x64_S50000x16x64_2_0_01_1_n_n_wf
def gather_S100000x64_S50000x16x1_S50000x16x64_2_0_n_n_0_2_164 : GatherDims S100000x64 S50000x16x1 S50000x16x64 where
  offsetDims := [2]
  collapsedSliceDims := [0]
  operandBatchingDims := []
  startIndicesBatchingDims := []
  startIndexMap := [0]
  indexVectorDim := 2
  sliceSizes := ![1, 64]
  wf := gather_S100000x64_S50000x16x1_S50000x16x64_2_0_n_n_0_2_164_wf
def dot_S50000x16x64_S64x64_S50000x16x64_2_0_01_1_n_n : DotDims S50000x16x64 S64x64 S50000x16x64 where
  lhsContracting := [2]
  rhsContracting := [0]
  lhsNonContracting := [0, 1]
  rhsNonContracting := [1]
  lhsBatch := []
  rhsBatch := []
  wf := dot_S50000x16x64_S64x64_S50000x16x64_2_0_01_1_n_n_wf
def dot_S50000x192_S192x64_S50000x64_1_0_0_1_n_n : DotDims S50000x192 S192x64 S50000x64 where
  lhsContracting := [1]
  rhsContracting := [0]
  lhsNonContracting := [0]
  rhsNonContracting := [1]
  lhsBatch := []
  rhsBatch := []
  wf := dot_S50000x192_S192x64_S50000x64_1_0_0_1_n_n_wf

class Facts : Prop extends Facts₀ where

variable [Facts]
-- ==== Proof.RefRun.lean ====
/-
  The reference program's run, read back.

  The reference is a straight line of 107 host operations. Running them from a memory leaves each result buffer at the
  operations' composed term of the arguments, and the arguments as they were. The composed term is evaluated here in three
  stretches: the 78 operations up to the two pooled arrays; the join of the own features with the two pooled arrays, whose
  three operands are read each at its own buffer; and the 28 operations after the join, which see only the joined array
  and the last weight and parameter matrix. The stretches are then put together.
-/
import proofs.«171359_j52956946760189_2_alg».proof.Proof.Gen.ReferenceIdeal
import Idealize.ShloMosaic.Lib.StableHlo.Run

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

/-- The program's 107 operations, in order; the three rectifiers, which the program calls as functions, stand as their own
    three operations each (the floor, its spread over the array, the maximum). -/
abbrev ops : List (HloOp τ sig (Elt F)) :=
  [ nullary main_c (constantI S_ 32 0#32),
    unary main_c main_v0 (broadcastInDim S50000x16 ![] bcast_S_S50000x16 : (⟨S_, .i32⟩ : BufTy).Contents (Elt F) → (⟨S50000x16, .i32⟩ : BufTy).Contents (Elt F)),
    binary main_arg9 main_v0 main_v1 (cmpi .slt : (⟨S50000x16, .i32⟩ : BufTy).Contents (Elt F) → (⟨S50000x16, .i32⟩ : BufTy).Contents (Elt F) → (⟨S50000x16, .i1⟩ : BufTy).Contents (Elt F)),
    nullary main_c_0 (constantI S_ 32 200000#32),
    unary main_c_0 main_v2 (broadcastInDim S50000x16 ![] bcast_S_S50000x16 : (⟨S_, .i32⟩ : BufTy).Contents (Elt F) → (⟨S50000x16, .i32⟩ : BufTy).Contents (Elt F)),
    binary main_arg9 main_v2 main_v3 (addi : (⟨S50000x16, .i32⟩ : BufTy).Contents (Elt F) → (⟨S50000x16, .i32⟩ : BufTy).Contents (Elt F) → (⟨S50000x16, .i32⟩ : BufTy).Contents (Elt F)),
    ternary main_v1 main_v3 main_arg9 main_v4 (select : (⟨S50000x16, .i1⟩ : BufTy).Contents (Elt F) → (⟨S50000x16, .i32⟩ : BufTy).Contents (Elt F) → (⟨S50000x16, .i32⟩ : BufTy).Contents (Elt F) → (⟨S50000x16, .i32⟩ : BufTy).Contents (Elt F)),
    unary main_v4 main_v5 (broadcastInDim S50000x16x1 ![0, 1] bcast_S50000x16_S50000x16x1_0_1 : (⟨S50000x16, .i32⟩ : BufTy).Contents (Elt F) → (⟨S50000x16x1, .i32⟩ : BufTy).Contents (Elt F)),
    binary main_arg0 main_v5 main_v6 ((fun x i => Host.gather gather_S200000x32_S50000x16x1_S50000x16x32_2_0_n_n_0_2_132 x i) : (⟨S200000x32, .f32⟩ : BufTy).Contents (Elt F) → (⟨S50000x16x1, .i32⟩ : BufTy).Contents (Elt F) → (⟨S50000x16x32, .f32⟩ : BufTy).Contents (Elt F)),
    binary main_v6 main_arg3 main_v7 ((fun l r => Host.dotGeneral dot_S50000x16x32_S32x64_S50000x16x64_2_0_01_1_n_n none l r) : (⟨S50000x16x32, .f32⟩ : BufTy).Contents (Elt F) → (⟨S32x64, .f32⟩ : BufTy).Contents (Elt F) → (⟨S50000x16x64, .f32⟩ : BufTy).Contents (Elt F)),
    unary main_arg4 main_v8 ((extractStridedSlice S1x64 ![0, 0] · slices_S4x64_S1x64_0_0) : (⟨S4x64, .f32⟩ : BufTy).Contents (Elt F) → (⟨S1x64, .f32⟩ : BufTy).Contents (Elt F)),
    reshape main_v8 main_v9 rfl shapeCasts_S1x64_S64,
    unary main_arg4 main_v10 ((extractStridedSlice S1x64 ![1, 0] · slices_S4x64_S1x64_1_0) : (⟨S4x64, .f32⟩ : BufTy).Contents (Elt F) → (⟨S1x64, .f32⟩ : BufTy).Contents (Elt F)),
    reshape main_v10 main_v11 rfl shapeCasts_S1x64_S64,
    unary main_arg4 main_v12 ((extractStridedSlice S1x64 ![2, 0] · slices_S4x64_S1x64_2_0) : (⟨S4x64, .f32⟩ : BufTy).Contents (Elt F) → (⟨S1x64, .f32⟩ : BufTy).Contents (Elt F)),
    reshape main_v12 main_v13 rfl shapeCasts_S1x64_S64,
    unary main_arg4 main_v14 ((extractStridedSlice S1x64 ![3, 0] · slices_S4x64_S1x64_3_0) : (⟨S4x64, .f32⟩ : BufTy).Contents (Elt F) → (⟨S1x64, .f32⟩ : BufTy).Contents (Elt F)),
    reshape main_v14 main_v15 rfl shapeCasts_S1x64_S64,
    unary main_v13 main_v16 (broadcastInDim S1x1x64 ![2] bcast_S64_S1x1x64_2 : (⟨S64, .f32⟩ : BufTy).Contents (Elt F) → (⟨S1x1x64, .f32⟩ : BufTy).Contents (Elt F)),
    unary main_v16 main_v17 (broadcastInDim S50000x16x64 ![0, 1, 2] bcast_S1x1x64_S50000x16x64_0_1_2 : (⟨S1x1x64, .f32⟩ : BufTy).Contents (Elt F) → (⟨S50000x16x64, .f32⟩ : BufTy).Contents (Elt F)),
    binary main_v7 main_v17 main_v18 (subf : (⟨S50000x16x64, .f32⟩ : BufTy).Contents (Elt F) → (⟨S50000x16x64, .f32⟩ : BufTy).Contents (Elt F) → (⟨S50000x16x64, .f32⟩ : BufTy).Contents (Elt F)),
    nullary main_cst (constant S_ .f32 0x3A83126F#32),
    unary main_cst main_v19 (broadcastInDim S64 ![] bcast_S_S64 : (⟨S_, .f32⟩ : BufTy).Contents (Elt F) → (⟨S64, .f32⟩ : BufTy).Contents (Elt F)),
    binary main_v15 main_v19 main_v20 (addf : (⟨S64, .f32⟩ : BufTy).Contents (Elt F) → (⟨S64, .f32⟩ : BufTy).Contents (Elt F) → (⟨S64, .f32⟩ : BufTy).Contents (Elt F)),
    unary main_v20 main_v21 (Host.rsqrt : (⟨S64, .f32⟩ : BufTy).Contents (Elt F) → (⟨S64, .f32⟩ : BufTy).Contents (Elt F)),
    unary main_v21 main_v22 (broadcastInDim S1x1x64 ![2] bcast_S64_S1x1x64_2 : (⟨S64, .f32⟩ : BufTy).Contents (Elt F) → (⟨S1x1x64, .f32⟩ : BufTy).Contents (Elt F)),
    unary main_v22 main_v23 (broadcastInDim S50000x16x64 ![0, 1, 2] bcast_S1x1x64_S50000x16x64_0_1_2 : (⟨S1x1x64, .f32⟩ : BufTy).Contents (Elt F) → (⟨S50000x16x64, .f32⟩ : BufTy).Contents (Elt F)),
    binary main_v18 main_v23 main_v24 (mulf : (⟨S50000x16x64, .f32⟩ : BufTy).Contents (Elt F) → (⟨S50000x16x64, .f32⟩ : BufTy).Contents (Elt F) → (⟨S50000x16x64, .f32⟩ : BufTy).Contents (Elt F)),
    unary main_v9 main_v25 (broadcastInDim S1x1x64 ![2] bcast_S64_S1x1x64_2 : (⟨S64, .f32⟩ : BufTy).Contents (Elt F) → (⟨S1x1x64, .f32⟩ : BufTy).Contents (Elt F)),
    unary main_v25 main_v26 (broadcastInDim S50000x16x64 ![0, 1, 2] bcast_S1x1x64_S50000x16x64_0_1_2 : (⟨S1x1x64, .f32⟩ : BufTy).Contents (Elt F) → (⟨S50000x16x64, .f32⟩ : BufTy).Contents (Elt F)),
    binary main_v24 main_v26 main_v27 (mulf : (⟨S50000x16x64, .f32⟩ : BufTy).Contents (Elt F) → (⟨S50000x16x64, .f32⟩ : BufTy).Contents (Elt F) → (⟨S50000x16x64, .f32⟩ : BufTy).Contents (Elt F)),
    unary main_v11 main_v28 (broadcastInDim S1x1x64 ![2] bcast_S64_S1x1x64_2 : (⟨S64, .f32⟩ : BufTy).Contents (Elt F) → (⟨S1x1x64, .f32⟩ : BufTy).Contents (Elt F)),
    unary main_v28 main_v29 (broadcastInDim S50000x16x64 ![0, 1, 2] bcast_S1x1x64_S50000x16x64_0_1_2 : (⟨S1x1x64, .f32⟩ : BufTy).Contents (Elt F) → (⟨S50000x16x64, .f32⟩ : BufTy).Contents (Elt F)),
    binary main_v27 main_v29 main_v30 (addf : (⟨S50000x16x64, .f32⟩ : BufTy).Contents (Elt F) → (⟨S50000x16x64, .f32⟩ : BufTy).Contents (Elt F) → (⟨S50000x16x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x16x64, .f32⟩) main_call0_v0) (broadcastInDim S50000x16x64 ![] bcast_S_S50000x16x64),
    TRef.binary (TRef.of (T := ⟨S50000x16x64, .f32⟩) main_v30) (TRef.of (T := ⟨S50000x16x64, .f32⟩) main_call0_v0) (TRef.of (T := ⟨S50000x16x64, .f32⟩) main_v31) maximumf,
    nullary main_cst_1 (constant S_ .f32 0xFF800000#32),
    binary main_v31 main_cst_1 main_v32 ((fun x v => Host.reduce FloatOps.maximumf x v reducesTo_S50000x16x64_S50000x64_d1 h_S_) : (⟨S50000x16x64, .f32⟩ : BufTy).Contents (Elt F) → (⟨S_, .f32⟩ : BufTy).Contents (Elt F) → (⟨S50000x64, .f32⟩ : BufTy).Contents (Elt F)),
    nullary main_c_2 (constantI S_ 32 0#32),
    unary main_c_2 main_v33 (broadcastInDim S50000x16 ![] bcast_S_S50000x16 : (⟨S_, .i32⟩ : BufTy).Contents (Elt F) → (⟨S50000x16, .i32⟩ : BufTy).Contents (Elt F)),
    binary main_arg10 main_v33 main_v34 (cmpi .slt : (⟨S50000x16, .i32⟩ : BufTy).Contents (Elt F) → (⟨S50000x16, .i32⟩ : BufTy).Contents (Elt F) → (⟨S50000x16, .i1⟩ : BufTy).Contents (Elt F)),
    nullary main_c_3 (constantI S_ 32 100000#32),
    unary main_c_3 main_v35 (broadcastInDim S50000x16 ![] bcast_S_S50000x16 : (⟨S_, .i32⟩ : BufTy).Contents (Elt F) → (⟨S50000x16, .i32⟩ : BufTy).Contents (Elt F)),
    binary main_arg10 main_v35 main_v36 (addi : (⟨S50000x16, .i32⟩ : BufTy).Contents (Elt F) → (⟨S50000x16, .i32⟩ : BufTy).Contents (Elt F) → (⟨S50000x16, .i32⟩ : BufTy).Contents (Elt F)),
    ternary main_v34 main_v36 main_arg10 main_v37 (select : (⟨S50000x16, .i1⟩ : BufTy).Contents (Elt F) → (⟨S50000x16, .i32⟩ : BufTy).Contents (Elt F) → (⟨S50000x16, .i32⟩ : BufTy).Contents (Elt F) → (⟨S50000x16, .i32⟩ : BufTy).Contents (Elt F)),
    unary main_v37 main_v38 (broadcastInDim S50000x16x1 ![0, 1] bcast_S50000x16_S50000x16x1_0_1 : (⟨S50000x16, .i32⟩ : BufTy).Contents (Elt F) → (⟨S50000x16x1, .i32⟩ : BufTy).Contents (Elt F)),
    binary main_arg1 main_v38 main_v39 ((fun x i => Host.gather gather_S100000x64_S50000x16x1_S50000x16x64_2_0_n_n_0_2_164 x i) : (⟨S100000x64, .f32⟩ : BufTy).Contents (Elt F) → (⟨S50000x16x1, .i32⟩ : BufTy).Contents (Elt F) → (⟨S50000x16x64, .f32⟩ : BufTy).Contents (Elt F)),
    binary main_v39 main_arg5 main_v40 ((fun l r => Host.dotGeneral dot_S50000x16x64_S64x64_S50000x16x64_2_0_01_1_n_n none l r) : (⟨S50000x16x64, .f32⟩ : BufTy).Contents (Elt F) → (⟨S64x64, .f32⟩ : BufTy).Contents (Elt F) → (⟨S50000x16x64, .f32⟩ : BufTy).Contents (Elt F)),
    unary main_arg6 main_v41 ((extractStridedSlice S1x64 ![0, 0] · slices_S4x64_S1x64_0_0) : (⟨S4x64, .f32⟩ : BufTy).Contents (Elt F) → (⟨S1x64, .f32⟩ : BufTy).Contents (Elt F)),
    reshape main_v41 main_v42 rfl shapeCasts_S1x64_S64,
    unary main_arg6 main_v43 ((extractStridedSlice S1x64 ![1, 0] · slices_S4x64_S1x64_1_0) : (⟨S4x64, .f32⟩ : BufTy).Contents (Elt F) → (⟨S1x64, .f32⟩ : BufTy).Contents (Elt F)),
    reshape main_v43 main_v44 rfl shapeCasts_S1x64_S64,
    unary main_arg6 main_v45 ((extractStridedSlice S1x64 ![2, 0] · slices_S4x64_S1x64_2_0) : (⟨S4x64, .f32⟩ : BufTy).Contents (Elt F) → (⟨S1x64, .f32⟩ : BufTy).Contents (Elt F)),
    reshape main_v45 main_v46 rfl shapeCasts_S1x64_S64,
    unary main_arg6 main_v47 ((extractStridedSlice S1x64 ![3, 0] · slices_S4x64_S1x64_3_0) : (⟨S4x64, .f32⟩ : BufTy).Contents (Elt F) → (⟨S1x64, .f32⟩ : BufTy).Contents (Elt F)),
    reshape main_v47 main_v48 rfl shapeCasts_S1x64_S64,
    unary main_v46 main_v49 (broadcastInDim S1x1x64 ![2] bcast_S64_S1x1x64_2 : (⟨S64, .f32⟩ : BufTy).Contents (Elt F) → (⟨S1x1x64, .f32⟩ : BufTy).Contents (Elt F)),
    unary main_v49 main_v50 (broadcastInDim S50000x16x64 ![0, 1, 2] bcast_S1x1x64_S50000x16x64_0_1_2 : (⟨S1x1x64, .f32⟩ : BufTy).Contents (Elt F) → (⟨S50000x16x64, .f32⟩ : BufTy).Contents (Elt F)),
    binary main_v40 main_v50 main_v51 (subf : (⟨S50000x16x64, .f32⟩ : BufTy).Contents (Elt F) → (⟨S50000x16x64, .f32⟩ : BufTy).Contents (Elt F) → (⟨S50000x16x64, .f32⟩ : BufTy).Contents (Elt F)),
    nullary main_cst_4 (constant S_ .f32 0x3A83126F#32),
    unary main_cst_4 main_v52 (broadcastInDim S64 ![] bcast_S_S64 : (⟨S_, .f32⟩ : BufTy).Contents (Elt F) → (⟨S64, .f32⟩ : BufTy).Contents (Elt F)),
    binary main_v48 main_v52 main_v53 (addf : (⟨S64, .f32⟩ : BufTy).Contents (Elt F) → (⟨S64, .f32⟩ : BufTy).Contents (Elt F) → (⟨S64, .f32⟩ : BufTy).Contents (Elt F)),
    unary main_v53 main_v54 (Host.rsqrt : (⟨S64, .f32⟩ : BufTy).Contents (Elt F) → (⟨S64, .f32⟩ : BufTy).Contents (Elt F)),
    unary main_v54 main_v55 (broadcastInDim S1x1x64 ![2] bcast_S64_S1x1x64_2 : (⟨S64, .f32⟩ : BufTy).Contents (Elt F) → (⟨S1x1x64, .f32⟩ : BufTy).Contents (Elt F)),
    unary main_v55 main_v56 (broadcastInDim S50000x16x64 ![0, 1, 2] bcast_S1x1x64_S50000x16x64_0_1_2 : (⟨S1x1x64, .f32⟩ : BufTy).Contents (Elt F) → (⟨S50000x16x64, .f32⟩ : BufTy).Contents (Elt F)),
    binary main_v51 main_v56 main_v57 (mulf : (⟨S50000x16x64, .f32⟩ : BufTy).Contents (Elt F) → (⟨S50000x16x64, .f32⟩ : BufTy).Contents (Elt F) → (⟨S50000x16x64, .f32⟩ : BufTy).Contents (Elt F)),
    unary main_v42 main_v58 (broadcastInDim S1x1x64 ![2] bcast_S64_S1x1x64_2 : (⟨S64, .f32⟩ : BufTy).Contents (Elt F) → (⟨S1x1x64, .f32⟩ : BufTy).Contents (Elt F)),
    unary main_v58 main_v59 (broadcastInDim S50000x16x64 ![0, 1, 2] bcast_S1x1x64_S50000x16x64_0_1_2 : (⟨S1x1x64, .f32⟩ : BufTy).Contents (Elt F) → (⟨S50000x16x64, .f32⟩ : BufTy).Contents (Elt F)),
    binary main_v57 main_v59 main_v60 (mulf : (⟨S50000x16x64, .f32⟩ : BufTy).Contents (Elt F) → (⟨S50000x16x64, .f32⟩ : BufTy).Contents (Elt F) → (⟨S50000x16x64, .f32⟩ : BufTy).Contents (Elt F)),
    unary main_v44 main_v61 (broadcastInDim S1x1x64 ![2] bcast_S64_S1x1x64_2 : (⟨S64, .f32⟩ : BufTy).Contents (Elt F) → (⟨S1x1x64, .f32⟩ : BufTy).Contents (Elt F)),
    unary main_v61 main_v62 (broadcastInDim S50000x16x64 ![0, 1, 2] bcast_S1x1x64_S50000x16x64_0_1_2 : (⟨S1x1x64, .f32⟩ : BufTy).Contents (Elt F) → (⟨S50000x16x64, .f32⟩ : BufTy).Contents (Elt F)),
    binary main_v60 main_v62 main_v63 (addf : (⟨S50000x16x64, .f32⟩ : BufTy).Contents (Elt F) → (⟨S50000x16x64, .f32⟩ : BufTy).Contents (Elt F) → (⟨S50000x16x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x16x64, .f32⟩) main_call1_v0) (broadcastInDim S50000x16x64 ![] bcast_S_S50000x16x64),
    TRef.binary (TRef.of (T := ⟨S50000x16x64, .f32⟩) main_v63) (TRef.of (T := ⟨S50000x16x64, .f32⟩) main_call1_v0) (TRef.of (T := ⟨S50000x16x64, .f32⟩) main_v64) maximumf,
    nullary main_cst_5 (constant S_ .f32 0xFF800000#32),
    binary main_v64 main_cst_5 main_v65 ((fun x v => Host.reduce FloatOps.maximumf x v reducesTo_S50000x16x64_S50000x64_d1 h_S_) : (⟨S50000x16x64, .f32⟩ : BufTy).Contents (Elt F) → (⟨S_, .f32⟩ : BufTy).Contents (Elt F) → (⟨S50000x64, .f32⟩ : BufTy).Contents (Elt F)),
    nary ![main_arg2, main_v32, main_v65] main_v66 (fun u => concatenate S50000x192 1 [⟨S50000x64, u 0⟩, ⟨S50000x64, u 1⟩, ⟨S50000x64, u 2⟩] concatenates_S50000x64_S50000x64_S50000x64_S50000x192_d1),
    binary main_v66 main_arg7 main_v67 ((fun l r => Host.dotGeneral dot_S50000x192_S192x64_S50000x64_1_0_0_1_n_n none l r) : (⟨S50000x192, .f32⟩ : BufTy).Contents (Elt F) → (⟨S192x64, .f32⟩ : BufTy).Contents (Elt F) → (⟨S50000x64, .f32⟩ : BufTy).Contents (Elt F)),
    unary main_arg8 main_v68 ((extractStridedSlice S1x64 ![0, 0] · slices_S4x64_S1x64_0_0) : (⟨S4x64, .f32⟩ : BufTy).Contents (Elt F) → (⟨S1x64, .f32⟩ : BufTy).Contents (Elt F)),
    reshape main_v68 main_v69 rfl shapeCasts_S1x64_S64,
    unary main_arg8 main_v70 ((extractStridedSlice S1x64 ![1, 0] · slices_S4x64_S1x64_1_0) : (⟨S4x64, .f32⟩ : BufTy).Contents (Elt F) → (⟨S1x64, .f32⟩ : BufTy).Contents (Elt F)),
    reshape main_v70 main_v71 rfl shapeCasts_S1x64_S64,
    unary main_arg8 main_v72 ((extractStridedSlice S1x64 ![2, 0] · slices_S4x64_S1x64_2_0) : (⟨S4x64, .f32⟩ : BufTy).Contents (Elt F) → (⟨S1x64, .f32⟩ : BufTy).Contents (Elt F)),
    reshape main_v72 main_v73 rfl shapeCasts_S1x64_S64,
    unary main_arg8 main_v74 ((extractStridedSlice S1x64 ![3, 0] · slices_S4x64_S1x64_3_0) : (⟨S4x64, .f32⟩ : BufTy).Contents (Elt F) → (⟨S1x64, .f32⟩ : BufTy).Contents (Elt F)),
    reshape main_v74 main_v75 rfl shapeCasts_S1x64_S64,
    unary main_v73 main_v76 (broadcastInDim S1x64 ![1] bcast_S64_S1x64_1 : (⟨S64, .f32⟩ : BufTy).Contents (Elt F) → (⟨S1x64, .f32⟩ : BufTy).Contents (Elt F)),
    unary main_v76 main_v77 (broadcastInDim S50000x64 ![0, 1] bcast_S1x64_S50000x64_0_1 : (⟨S1x64, .f32⟩ : BufTy).Contents (Elt F) → (⟨S50000x64, .f32⟩ : BufTy).Contents (Elt F)),
    binary main_v67 main_v77 main_v78 (subf : (⟨S50000x64, .f32⟩ : BufTy).Contents (Elt F) → (⟨S50000x64, .f32⟩ : BufTy).Contents (Elt F) → (⟨S50000x64, .f32⟩ : BufTy).Contents (Elt F)),
    nullary main_cst_6 (constant S_ .f32 0x3A83126F#32),
    unary main_cst_6 main_v79 (broadcastInDim S64 ![] bcast_S_S64 : (⟨S_, .f32⟩ : BufTy).Contents (Elt F) → (⟨S64, .f32⟩ : BufTy).Contents (Elt F)),
    binary main_v75 main_v79 main_v80 (addf : (⟨S64, .f32⟩ : BufTy).Contents (Elt F) → (⟨S64, .f32⟩ : BufTy).Contents (Elt F) → (⟨S64, .f32⟩ : BufTy).Contents (Elt F)),
    unary main_v80 main_v81 (Host.rsqrt : (⟨S64, .f32⟩ : BufTy).Contents (Elt F) → (⟨S64, .f32⟩ : BufTy).Contents (Elt F)),
    unary main_v81 main_v82 (broadcastInDim S1x64 ![1] bcast_S64_S1x64_1 : (⟨S64, .f32⟩ : BufTy).Contents (Elt F) → (⟨S1x64, .f32⟩ : BufTy).Contents (Elt F)),
    unary main_v82 main_v83 (broadcastInDim S50000x64 ![0, 1] bcast_S1x64_S50000x64_0_1 : (⟨S1x64, .f32⟩ : BufTy).Contents (Elt F) → (⟨S50000x64, .f32⟩ : BufTy).Contents (Elt F)),
    binary main_v78 main_v83 main_v84 (mulf : (⟨S50000x64, .f32⟩ : BufTy).Contents (Elt F) → (⟨S50000x64, .f32⟩ : BufTy).Contents (Elt F) → (⟨S50000x64, .f32⟩ : BufTy).Contents (Elt F)),
    unary main_v69 main_v85 (broadcastInDim S1x64 ![1] bcast_S64_S1x64_1 : (⟨S64, .f32⟩ : BufTy).Contents (Elt F) → (⟨S1x64, .f32⟩ : BufTy).Contents (Elt F)),
    unary main_v85 main_v86 (broadcastInDim S50000x64 ![0, 1] bcast_S1x64_S50000x64_0_1 : (⟨S1x64, .f32⟩ : BufTy).Contents (Elt F) → (⟨S50000x64, .f32⟩ : BufTy).Contents (Elt F)),
    binary main_v84 main_v86 main_v87 (mulf : (⟨S50000x64, .f32⟩ : BufTy).Contents (Elt F) → (⟨S50000x64, .f32⟩ : BufTy).Contents (Elt F) → (⟨S50000x64, .f32⟩ : BufTy).Contents (Elt F)),
    unary main_v71 main_v88 (broadcastInDim S1x64 ![1] bcast_S64_S1x64_1 : (⟨S64, .f32⟩ : BufTy).Contents (Elt F) → (⟨S1x64, .f32⟩ : BufTy).Contents (Elt F)),
    unary main_v88 main_v89 (broadcastInDim S50000x64 ![0, 1] bcast_S1x64_S50000x64_0_1 : (⟨S1x64, .f32⟩ : BufTy).Contents (Elt F) → (⟨S50000x64, .f32⟩ : BufTy).Contents (Elt F)),
    binary main_v87 main_v89 main_v90 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x64, .f32⟩) main_call2_v0) (broadcastInDim S50000x64 ![] bcast_S_S50000x64),
    TRef.binary (TRef.of (T := ⟨S50000x64, .f32⟩) main_v90) (TRef.of (T := ⟨S50000x64, .f32⟩) main_call2_v0) (TRef.of (T := ⟨S50000x64, .f32⟩) main_v91) maximumf ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., binary_bufs_sub .., nary_bufs_sub .., binary_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

set_option maxRecDepth 8192 in

/-! ## The three stretches -/

/-- The operations before the join. -/
abbrev opsBefore : List (HloOp τ sig (Elt F)) :=
  [ nullary main_c (constantI S_ 32 0#32),
    unary main_c main_v0 (broadcastInDim S50000x16 ![] bcast_S_S50000x16 : (⟨S_, .i32⟩ : BufTy).Contents (Elt F) → (⟨S50000x16, .i32⟩ : BufTy).Contents (Elt F)),
    binary main_arg9 main_v0 main_v1 (cmpi .slt : (⟨S50000x16, .i32⟩ : BufTy).Contents (Elt F) → (⟨S50000x16, .i32⟩ : BufTy).Contents (Elt F) → (⟨S50000x16, .i1⟩ : BufTy).Contents (Elt F)),
    nullary main_c_0 (constantI S_ 32 200000#32),
    unary main_c_0 main_v2 (broadcastInDim S50000x16 ![] bcast_S_S50000x16 : (⟨S_, .i32⟩ : BufTy).Contents (Elt F) → (⟨S50000x16, .i32⟩ : BufTy).Contents (Elt F)),
    binary main_arg9 main_v2 main_v3 (addi : (⟨S50000x16, .i32⟩ : BufTy).Contents (Elt F) → (⟨S50000x16, .i32⟩ : BufTy).Contents (Elt F) → (⟨S50000x16, .i32⟩ : BufTy).Contents (Elt F)),
    ternary main_v1 main_v3 main_arg9 main_v4 (select : (⟨S50000x16, .i1⟩ : BufTy).Contents (Elt F) → (⟨S50000x16, .i32⟩ : BufTy).Contents (Elt F) → (⟨S50000x16, .i32⟩ : BufTy).Contents (Elt F) → (⟨S50000x16, .i32⟩ : BufTy).Contents (Elt F)),
    unary main_v4 main_v5 (broadcastInDim S50000x16x1 ![0, 1] bcast_S50000x16_S50000x16x1_0_1 : (⟨S50000x16, .i32⟩ : BufTy).Contents (Elt F) → (⟨S50000x16x1, .i32⟩ : BufTy).Contents (Elt F)),
    binary main_arg0 main_v5 main_v6 ((fun x i => Host.gather gather_S200000x32_S50000x16x1_S50000x16x32_2_0_n_n_0_2_132 x i) : (⟨S200000x32, .f32⟩ : BufTy).Contents (Elt F) → (⟨S50000x16x1, .i32⟩ : BufTy).Contents (Elt F) → (⟨S50000x16x32, .f32⟩ : BufTy).Contents (Elt F)),
    binary main_v6 main_arg3 main_v7 ((fun l r => Host.dotGeneral dot_S50000x16x32_S32x64_S50000x16x64_2_0_01_1_n_n none l r) : (⟨S50000x16x32, .f32⟩ : BufTy).Contents (Elt F) → (⟨S32x64, .f32⟩ : BufTy).Contents (Elt F) → (⟨S50000x16x64, .f32⟩ : BufTy).Contents (Elt F)),
    unary main_arg4 main_v8 ((extractStridedSlice S1x64 ![0, 0] · slices_S4x64_S1x64_0_0) : (⟨S4x64, .f32⟩ : BufTy).Contents (Elt F) → (⟨S1x64, .f32⟩ : BufTy).Contents (Elt F)),
    reshape main_v8 main_v9 rfl shapeCasts_S1x64_S64,
    unary main_arg4 main_v10 ((extractStridedSlice S1x64 ![1, 0] · slices_S4x64_S1x64_1_0) : (⟨S4x64, .f32⟩ : BufTy).Contents (Elt F) → (⟨S1x64, .f32⟩ : BufTy).Contents (Elt F)),
    reshape main_v10 main_v11 rfl shapeCasts_S1x64_S64,
    unary main_arg4 main_v12 ((extractStridedSlice S1x64 ![2, 0] · slices_S4x64_S1x64_2_0) : (⟨S4x64, .f32⟩ : BufTy).Contents (Elt F) → (⟨S1x64, .f32⟩ : BufTy).Contents (Elt F)),
    reshape main_v12 main_v13 rfl shapeCasts_S1x64_S64,
    unary main_arg4 main_v14 ((extractStridedSlice S1x64 ![3, 0] · slices_S4x64_S1x64_3_0) : (⟨S4x64, .f32⟩ : BufTy).Contents (Elt F) → (⟨S1x64, .f32⟩ : BufTy).Contents (Elt F)),
    reshape main_v14 main_v15 rfl shapeCasts_S1x64_S64,
    unary main_v13 main_v16 (broadcastInDim S1x1x64 ![2] bcast_S64_S1x1x64_2 : (⟨S64, .f32⟩ : BufTy).Contents (Elt F) → (⟨S1x1x64, .f32⟩ : BufTy).Contents (Elt F)),
    unary main_v16 main_v17 (broadcastInDim S50000x16x64 ![0, 1, 2] bcast_S1x1x64_S50000x16x64_0_1_2 : (⟨S1x1x64, .f32⟩ : BufTy).Contents (Elt F) → (⟨S50000x16x64, .f32⟩ : BufTy).Contents (Elt F)),
    binary main_v7 main_v17 main_v18 (subf : (⟨S50000x16x64, .f32⟩ : BufTy).Contents (Elt F) → (⟨S50000x16x64, .f32⟩ : BufTy).Contents (Elt F) → (⟨S50000x16x64, .f32⟩ : BufTy).Contents (Elt F)),
    nullary main_cst (constant S_ .f32 0x3A83126F#32),
    unary main_cst main_v19 (broadcastInDim S64 ![] bcast_S_S64 : (⟨S_, .f32⟩ : BufTy).Contents (Elt F) → (⟨S64, .f32⟩ : BufTy).Contents (Elt F)),
    binary main_v15 main_v19 main_v20 (addf : (⟨S64, .f32⟩ : BufTy).Contents (Elt F) → (⟨S64, .f32⟩ : BufTy).Contents (Elt F) → (⟨S64, .f32⟩ : BufTy).Contents (Elt F)),
    unary main_v20 main_v21 (Host.rsqrt : (⟨S64, .f32⟩ : BufTy).Contents (Elt F) → (⟨S64, .f32⟩ : BufTy).Contents (Elt F)),
    unary main_v21 main_v22 (broadcastInDim S1x1x64 ![2] bcast_S64_S1x1x64_2 : (⟨S64, .f32⟩ : BufTy).Contents (Elt F) → (⟨S1x1x64, .f32⟩ : BufTy).Contents (Elt F)),
    unary main_v22 main_v23 (broadcastInDim S50000x16x64 ![0, 1, 2] bcast_S1x1x64_S50000x16x64_0_1_2 : (⟨S1x1x64, .f32⟩ : BufTy).Contents (Elt F) → (⟨S50000x16x64, .f32⟩ : BufTy).Contents (Elt F)),
    binary main_v18 main_v23 main_v24 (mulf : (⟨S50000x16x64, .f32⟩ : BufTy).Contents (Elt F) → (⟨S50000x16x64, .f32⟩ : BufTy).Contents (Elt F) → (⟨S50000x16x64, .f32⟩ : BufTy).Contents (Elt F)),
    unary main_v9 main_v25 (broadcastInDim S1x1x64 ![2] bcast_S64_S1x1x64_2 : (⟨S64, .f32⟩ : BufTy).Contents (Elt F) → (⟨S1x1x64, .f32⟩ : BufTy).Contents (Elt F)),
    unary main_v25 main_v26 (broadcastInDim S50000x16x64 ![0, 1, 2] bcast_S1x1x64_S50000x16x64_0_1_2 : (⟨S1x1x64, .f32⟩ : BufTy).Contents (Elt F) → (⟨S50000x16x64, .f32⟩ : BufTy).Contents (Elt F)),
    binary main_v24 main_v26 main_v27 (mulf : (⟨S50000x16x64, .f32⟩ : BufTy).Contents (Elt F) → (⟨S50000x16x64, .f32⟩ : BufTy).Contents (Elt F) → (⟨S50000x16x64, .f32⟩ : BufTy).Contents (Elt F)),
    unary main_v11 main_v28 (broadcastInDim S1x1x64 ![2] bcast_S64_S1x1x64_2 : (⟨S64, .f32⟩ : BufTy).Contents (Elt F) → (⟨S1x1x64, .f32⟩ : BufTy).Contents (Elt F)),
    unary main_v28 main_v29 (broadcastInDim S50000x16x64 ![0, 1, 2] bcast_S1x1x64_S50000x16x64_0_1_2 : (⟨S1x1x64, .f32⟩ : BufTy).Contents (Elt F) → (⟨S50000x16x64, .f32⟩ : BufTy).Contents (Elt F)),
    binary main_v27 main_v29 main_v30 (addf : (⟨S50000x16x64, .f32⟩ : BufTy).Contents (Elt F) → (⟨S50000x16x64, .f32⟩ : BufTy).Contents (Elt F) → (⟨S50000x16x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x16x64, .f32⟩) main_call0_v0) (broadcastInDim S50000x16x64 ![] bcast_S_S50000x16x64),
    TRef.binary (TRef.of (T := ⟨S50000x16x64, .f32⟩) main_v30) (TRef.of (T := ⟨S50000x16x64, .f32⟩) main_call0_v0) (TRef.of (T := ⟨S50000x16x64, .f32⟩) main_v31) maximumf,
    nullary main_cst_1 (constant S_ .f32 0xFF800000#32),
    binary main_v31 main_cst_1 main_v32 ((fun x v => Host.reduce FloatOps.maximumf x v reducesTo_S50000x16x64_S50000x64_d1 h_S_) : (⟨S50000x16x64, .f32⟩ : BufTy).Contents (Elt F) → (⟨S_, .f32⟩ : BufTy).Contents (Elt F) → (⟨S50000x64, .f32⟩ : BufTy).Contents (Elt F)),
    nullary main_c_2 (constantI S_ 32 0#32),
    unary main_c_2 main_v33 (broadcastInDim S50000x16 ![] bcast_S_S50000x16 : (⟨S_, .i32⟩ : BufTy).Contents (Elt F) → (⟨S50000x16, .i32⟩ : BufTy).Contents (Elt F)),
    binary main_arg10 main_v33 main_v34 (cmpi .slt : (⟨S50000x16, .i32⟩ : BufTy).Contents (Elt F) → (⟨S50000x16, .i32⟩ : BufTy).Contents (Elt F) → (⟨S50000x16, .i1⟩ : BufTy).Contents (Elt F)),
    nullary main_c_3 (constantI S_ 32 100000#32),
    unary main_c_3 main_v35 (broadcastInDim S50000x16 ![] bcast_S_S50000x16 : (⟨S_, .i32⟩ : BufTy).Contents (Elt F) → (⟨S50000x16, .i32⟩ : BufTy).Contents (Elt F)),
    binary main_arg10 main_v35 main_v36 (addi : (⟨S50000x16, .i32⟩ : BufTy).Contents (Elt F) → (⟨S50000x16, .i32⟩ : BufTy).Contents (Elt F) → (⟨S50000x16, .i32⟩ : BufTy).Contents (Elt F)),
    ternary main_v34 main_v36 main_arg10 main_v37 (select : (⟨S50000x16, .i1⟩ : BufTy).Contents (Elt F) → (⟨S50000x16, .i32⟩ : BufTy).Contents (Elt F) → (⟨S50000x16, .i32⟩ : BufTy).Contents (Elt F) → (⟨S50000x16, .i32⟩ : BufTy).Contents (Elt F)),
    unary main_v37 main_v38 (broadcastInDim S50000x16x1 ![0, 1] bcast_S50000x16_S50000x16x1_0_1 : (⟨S50000x16, .i32⟩ : BufTy).Contents (Elt F) → (⟨S50000x16x1, .i32⟩ : BufTy).Contents (Elt F)),
    binary main_arg1 main_v38 main_v39 ((fun x i => Host.gather gather_S100000x64_S50000x16x1_S50000x16x64_2_0_n_n_0_2_164 x i) : (⟨S100000x64, .f32⟩ : BufTy).Contents (Elt F) → (⟨S50000x16x1, .i32⟩ : BufTy).Contents (Elt F) → (⟨S50000x16x64, .f32⟩ : BufTy).Contents (Elt F)),
    binary main_v39 main_arg5 main_v40 ((fun l r => Host.dotGeneral dot_S50000x16x64_S64x64_S50000x16x64_2_0_01_1_n_n none l r) : (⟨S50000x16x64, .f32⟩ : BufTy).Contents (Elt F) → (⟨S64x64, .f32⟩ : BufTy).Contents (Elt F) → (⟨S50000x16x64, .f32⟩ : BufTy).Contents (Elt F)),
    unary main_arg6 main_v41 ((extractStridedSlice S1x64 ![0, 0] · slices_S4x64_S1x64_0_0) : (⟨S4x64, .f32⟩ : BufTy).Contents (Elt F) → (⟨S1x64, .f32⟩ : BufTy).Contents (Elt F)),
    reshape main_v41 main_v42 rfl shapeCasts_S1x64_S64,
    unary main_arg6 main_v43 ((extractStridedSlice S1x64 ![1, 0] · slices_S4x64_S1x64_1_0) : (⟨S4x64, .f32⟩ : BufTy).Contents (Elt F) → (⟨S1x64, .f32⟩ : BufTy).Contents (Elt F)),
    reshape main_v43 main_v44 rfl shapeCasts_S1x64_S64,
    unary main_arg6 main_v45 ((extractStridedSlice S1x64 ![2, 0] · slices_S4x64_S1x64_2_0) : (⟨S4x64, .f32⟩ : BufTy).Contents (Elt F) → (⟨S1x64, .f32⟩ : BufTy).Contents (Elt F)),
    reshape main_v45 main_v46 rfl shapeCasts_S1x64_S64,
    unary main_arg6 main_v47 ((extractStridedSlice S1x64 ![3, 0] · slices_S4x64_S1x64_3_0) : (⟨S4x64, .f32⟩ : BufTy).Contents (Elt F) → (⟨S1x64, .f32⟩ : BufTy).Contents (Elt F)),
    reshape main_v47 main_v48 rfl shapeCasts_S1x64_S64,
    unary main_v46 main_v49 (broadcastInDim S1x1x64 ![2] bcast_S64_S1x1x64_2 : (⟨S64, .f32⟩ : BufTy).Contents (Elt F) → (⟨S1x1x64, .f32⟩ : BufTy).Contents (Elt F)),
    unary main_v49 main_v50 (broadcastInDim S50000x16x64 ![0, 1, 2] bcast_S1x1x64_S50000x16x64_0_1_2 : (⟨S1x1x64, .f32⟩ : BufTy).Contents (Elt F) → (⟨S50000x16x64, .f32⟩ : BufTy).Contents (Elt F)),
    binary main_v40 main_v50 main_v51 (subf : (⟨S50000x16x64, .f32⟩ : BufTy).Contents (Elt F) → (⟨S50000x16x64, .f32⟩ : BufTy).Contents (Elt F) → (⟨S50000x16x64, .f32⟩ : BufTy).Contents (Elt F)),
    nullary main_cst_4 (constant S_ .f32 0x3A83126F#32),
    unary main_cst_4 main_v52 (broadcastInDim S64 ![] bcast_S_S64 : (⟨S_, .f32⟩ : BufTy).Contents (Elt F) → (⟨S64, .f32⟩ : BufTy).Contents (Elt F)),
    binary main_v48 main_v52 main_v53 (addf : (⟨S64, .f32⟩ : BufTy).Contents (Elt F) → (⟨S64, .f32⟩ : BufTy).Contents (Elt F) → (⟨S64, .f32⟩ : BufTy).Contents (Elt F)),
    unary main_v53 main_v54 (Host.rsqrt : (⟨S64, .f32⟩ : BufTy).Contents (Elt F) → (⟨S64, .f32⟩ : BufTy).Contents (Elt F)),
    unary main_v54 main_v55 (broadcastInDim S1x1x64 ![2] bcast_S64_S1x1x64_2 : (⟨S64, .f32⟩ : BufTy).Contents (Elt F) → (⟨S1x1x64, .f32⟩ : BufTy).Contents (Elt F)),
    unary main_v55 main_v56 (broadcastInDim S50000x16x64 ![0, 1, 2] bcast_S1x1x64_S50000x16x64_0_1_2 : (⟨S1x1x64, .f32⟩ : BufTy).Contents (Elt F) → (⟨S50000x16x64, .f32⟩ : BufTy).Contents (Elt F)),
    binary main_v51 main_v56 main_v57 (mulf : (⟨S50000x16x64, .f32⟩ : BufTy).Contents (Elt F) → (⟨S50000x16x64, .f32⟩ : BufTy).Contents (Elt F) → (⟨S50000x16x64, .f32⟩ : BufTy).Contents (Elt F)),
    unary main_v42 main_v58 (broadcastInDim S1x1x64 ![2] bcast_S64_S1x1x64_2 : (⟨S64, .f32⟩ : BufTy).Contents (Elt F) → (⟨S1x1x64, .f32⟩ : BufTy).Contents (Elt F)),
    unary main_v58 main_v59 (broadcastInDim S50000x16x64 ![0, 1, 2] bcast_S1x1x64_S50000x16x64_0_1_2 : (⟨S1x1x64, .f32⟩ : BufTy).Contents (Elt F) → (⟨S50000x16x64, .f32⟩ : BufTy).Contents (Elt F)),
    binary main_v57 main_v59 main_v60 (mulf : (⟨S50000x16x64, .f32⟩ : BufTy).Contents (Elt F) → (⟨S50000x16x64, .f32⟩ : BufTy).Contents (Elt F) → (⟨S50000x16x64, .f32⟩ : BufTy).Contents (Elt F)),
    unary main_v44 main_v61 (broadcastInDim S1x1x64 ![2] bcast_S64_S1x1x64_2 : (⟨S64, .f32⟩ : BufTy).Contents (Elt F) → (⟨S1x1x64, .f32⟩ : BufTy).Contents (Elt F)),
    unary main_v61 main_v62 (broadcastInDim S50000x16x64 ![0, 1, 2] bcast_S1x1x64_S50000x16x64_0_1_2 : (⟨S1x1x64, .f32⟩ : BufTy).Contents (Elt F) → (⟨S50000x16x64, .f32⟩ : BufTy).Contents (Elt F)),
    binary main_v60 main_v62 main_v63 (addf : (⟨S50000x16x64, .f32⟩ : BufTy).Contents (Elt F) → (⟨S50000x16x64, .f32⟩ : BufTy).Contents (Elt F) → (⟨S50000x16x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x16x64, .f32⟩) main_call1_v0) (broadcastInDim S50000x16x64 ![] bcast_S_S50000x16x64),
    TRef.binary (TRef.of (T := ⟨S50000x16x64, .f32⟩) main_v63) (TRef.of (T := ⟨S50000x16x64, .f32⟩) main_call1_v0) (TRef.of (T := ⟨S50000x16x64, .f32⟩) main_v64) maximumf,
    nullary main_cst_5 (constant S_ .f32 0xFF800000#32),
    binary main_v64 main_cst_5 main_v65 ((fun x v => Host.reduce FloatOps.maximumf x v reducesTo_S50000x16x64_S50000x64_d1 h_S_) : (⟨S50000x16x64, .f32⟩ : BufTy).Contents (Elt F) → (⟨S_, .f32⟩ : BufTy).Contents (Elt F) → (⟨S50000x64, .f32⟩ : BufTy).Contents (Elt F)) ]

/-- The join of the own features with the two pooled arrays. -/
abbrev joinOp : HloOp τ sig (Elt F) :=
  nary ![main_arg2, main_v32, main_v65] main_v66 (fun u => concatenate S50000x192 1 [⟨S50000x64, u 0⟩, ⟨S50000x64, u 1⟩, ⟨S50000x64, u 2⟩] concatenates_S50000x64_S50000x64_S50000x64_S50000x192_d1)

/-- The operations after the join. -/
abbrev opsAfter : List (HloOp τ sig (Elt F)) :=
  [ binary main_v66 main_arg7 main_v67 ((fun l r => Host.dotGeneral dot_S50000x192_S192x64_S50000x64_1_0_0_1_n_n none l r) : (⟨S50000x192, .f32⟩ : BufTy).Contents (Elt F) → (⟨S192x64, .f32⟩ : BufTy).Contents (Elt F) → (⟨S50000x64, .f32⟩ : BufTy).Contents (Elt F)),
    unary main_arg8 main_v68 ((extractStridedSlice S1x64 ![0, 0] · slices_S4x64_S1x64_0_0) : (⟨S4x64, .f32⟩ : BufTy).Contents (Elt F) → (⟨S1x64, .f32⟩ : BufTy).Contents (Elt F)),
    reshape main_v68 main_v69 rfl shapeCasts_S1x64_S64,
    unary main_arg8 main_v70 ((extractStridedSlice S1x64 ![1, 0] · slices_S4x64_S1x64_1_0) : (⟨S4x64, .f32⟩ : BufTy).Contents (Elt F) → (⟨S1x64, .f32⟩ : BufTy).Contents (Elt F)),
    reshape main_v70 main_v71 rfl shapeCasts_S1x64_S64,
    unary main_arg8 main_v72 ((extractStridedSlice S1x64 ![2, 0] · slices_S4x64_S1x64_2_0) : (⟨S4x64, .f32⟩ : BufTy).Contents (Elt F) → (⟨S1x64, .f32⟩ : BufTy).Contents (Elt F)),
    reshape main_v72 main_v73 rfl shapeCasts_S1x64_S64,
    unary main_arg8 main_v74 ((extractStridedSlice S1x64 ![3, 0] · slices_S4x64_S1x64_3_0) : (⟨S4x64, .f32⟩ : BufTy).Contents (Elt F) → (⟨S1x64, .f32⟩ : BufTy).Contents (Elt F)),
    reshape main_v74 main_v75 rfl shapeCasts_S1x64_S64,
    unary main_v73 main_v76 (broadcastInDim S1x64 ![1] bcast_S64_S1x64_1 : (⟨S64, .f32⟩ : BufTy).Contents (Elt F) → (⟨S1x64, .f32⟩ : BufTy).Contents (Elt F)),
    unary main_v76 main_v77 (broadcastInDim S50000x64 ![0, 1] bcast_S1x64_S50000x64_0_1 : (⟨S1x64, .f32⟩ : BufTy).Contents (Elt F) → (⟨S50000x64, .f32⟩ : BufTy).Contents (Elt F)),
    binary main_v67 main_v77 main_v78 (subf : (⟨S50000x64, .f32⟩ : BufTy).Contents (Elt F) → (⟨S50000x64, .f32⟩ : BufTy).Contents (Elt F) → (⟨S50000x64, .f32⟩ : BufTy).Contents (Elt F)),
    nullary main_cst_6 (constant S_ .f32 0x3A83126F#32),
    unary main_cst_6 main_v79 (broadcastInDim S64 ![] bcast_S_S64 : (⟨S_, .f32⟩ : BufTy).Contents (Elt F) → (⟨S64, .f32⟩ : BufTy).Contents (Elt F)),
    binary main_v75 main_v79 main_v80 (addf : (⟨S64, .f32⟩ : BufTy).Contents (Elt F) → (⟨S64, .f32⟩ : BufTy).Contents (Elt F) → (⟨S64, .f32⟩ : BufTy).Contents (Elt F)),
    unary main_v80 main_v81 (Host.rsqrt : (⟨S64, .f32⟩ : BufTy).Contents (Elt F) → (⟨S64, .f32⟩ : BufTy).Contents (Elt F)),
    unary main_v81 main_v82 (broadcastInDim S1x64 ![1] bcast_S64_S1x64_1 : (⟨S64, .f32⟩ : BufTy).Contents (Elt F) → (⟨S1x64, .f32⟩ : BufTy).Contents (Elt F)),
    unary main_v82 main_v83 (broadcastInDim S50000x64 ![0, 1] bcast_S1x64_S50000x64_0_1 : (⟨S1x64, .f32⟩ : BufTy).Contents (Elt F) → (⟨S50000x64, .f32⟩ : BufTy).Contents (Elt F)),
    binary main_v78 main_v83 main_v84 (mulf : (⟨S50000x64, .f32⟩ : BufTy).Contents (Elt F) → (⟨S50000x64, .f32⟩ : BufTy).Contents (Elt F) → (⟨S50000x64, .f32⟩ : BufTy).Contents (Elt F)),
    unary main_v69 main_v85 (broadcastInDim S1x64 ![1] bcast_S64_S1x64_1 : (⟨S64, .f32⟩ : BufTy).Contents (Elt F) → (⟨S1x64, .f32⟩ : BufTy).Contents (Elt F)),
    unary main_v85 main_v86 (broadcastInDim S50000x64 ![0, 1] bcast_S1x64_S50000x64_0_1 : (⟨S1x64, .f32⟩ : BufTy).Contents (Elt F) → (⟨S50000x64, .f32⟩ : BufTy).Contents (Elt F)),
    binary main_v84 main_v86 main_v87 (mulf : (⟨S50000x64, .f32⟩ : BufTy).Contents (Elt F) → (⟨S50000x64, .f32⟩ : BufTy).Contents (Elt F) → (⟨S50000x64, .f32⟩ : BufTy).Contents (Elt F)),
    unary main_v71 main_v88 (broadcastInDim S1x64 ![1] bcast_S64_S1x64_1 : (⟨S64, .f32⟩ : BufTy).Contents (Elt F) → (⟨S1x64, .f32⟩ : BufTy).Contents (Elt F)),
    unary main_v88 main_v89 (broadcastInDim S50000x64 ![0, 1] bcast_S1x64_S50000x64_0_1 : (⟨S1x64, .f32⟩ : BufTy).Contents (Elt F) → (⟨S50000x64, .f32⟩ : BufTy).Contents (Elt F)),
    binary main_v87 main_v89 main_v90 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x64, .f32⟩) main_call2_v0) (broadcastInDim S50000x64 ![] bcast_S_S50000x64),
    TRef.binary (TRef.of (T := ⟨S50000x64, .f32⟩) main_v90) (TRef.of (T := ⟨S50000x64, .f32⟩) main_call2_v0) (TRef.of (T := ⟨S50000x64, .f32⟩) main_v91) maximumf ]

set_option maxRecDepth 8192 in
/-- The program is the three stretches in order. -/
theorem ops_eq : (ops : List (HloOp τ sig (Elt F))) = opsBefore ++ joinOp :: opsAfter := rfl

/-- Running two stretches one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- The first pooled array's composed term of the arguments. -/
def res_pooled1 (m : (ℓ : Loc nD τ sig) → Buf (Elt F) ℓ) (c : Dev nD) : Buf (Elt F) ((c.tc : Thread nD τ).loc main_v32) :=
  (Host.reduce FloatOps.maximumf (maximumf (addf (mulf (mulf (subf (Host.dotGeneral dot_S50000x16x32_S32x64_S50000x16x64_2_0_01_1_n_n none (Host.gather gather_S200000x32_S50000x16x1_S50000x16x32_2_0_n_n_0_2_132 (m ((c.tc : Thread nD τ).loc main_arg0)) (broadcastInDim S50000x16x1 ![0, 1] bcast_S50000x16_S50000x16x1_0_1 (select (cmpi .slt (m ((c.tc : Thread nD τ).loc main_arg9)) (broadcastInDim S50000x16 ![] bcast_S_S50000x16 (constantI S_ 32 0#32))) (addi (m ((c.tc : Thread nD τ).loc main_arg9)) (broadcastInDim S50000x16 ![] bcast_S_S50000x16 (constantI S_ 32 200000#32))) (m ((c.tc : Thread nD τ).loc main_arg9))))) (m ((c.tc : Thread nD τ).loc main_arg3))) (broadcastInDim S50000x16x64 ![0, 1, 2] bcast_S1x1x64_S50000x16x64_0_1_2 (broadcastInDim S1x1x64 ![2] bcast_S64_S1x1x64_2 (shapeCast _ (extractStridedSlice S1x64 ![2, 0] (m ((c.tc : Thread nD τ).loc main_arg4)) slices_S4x64_S1x64_2_0) shapeCasts_S1x64_S64)))) (broadcastInDim S50000x16x64 ![0, 1, 2] bcast_S1x1x64_S50000x16x64_0_1_2 (broadcastInDim S1x1x64 ![2] bcast_S64_S1x1x64_2 (Host.rsqrt (addf (shapeCast _ (extractStridedSlice S1x64 ![3, 0] (m ((c.tc : Thread nD τ).loc main_arg4)) slices_S4x64_S1x64_3_0) shapeCasts_S1x64_S64) (broadcastInDim S64 ![] bcast_S_S64 (constant S_ .f32 0x3A83126F#32))))))) (broadcastInDim S50000x16x64 ![0, 1, 2] bcast_S1x1x64_S50000x16x64_0_1_2 (broadcastInDim S1x1x64 ![2] bcast_S64_S1x1x64_2 (shapeCast _ (extractStridedSlice S1x64 ![0, 0] (m ((c.tc : Thread nD τ).loc main_arg4)) slices_S4x64_S1x64_0_0) shapeCasts_S1x64_S64)))) (broadcastInDim S50000x16x64 ![0, 1, 2] bcast_S1x1x64_S50000x16x64_0_1_2 (broadcastInDim S1x1x64 ![2] bcast_S64_S1x1x64_2 (shapeCast _ (extractStridedSlice S1x64 ![1, 0] (m ((c.tc : Thread nD τ).loc main_arg4)) slices_S4x64_S1x64_1_0) shapeCasts_S1x64_S64)))) (broadcastInDim S50000x16x64 ![] bcast_S_S50000x16x64 (constant S_ .f32 0x00000000#32))) (constant S_ .f32 0xFF800000#32) reducesTo_S50000x16x64_S50000x64_d1 h_S_)

/-- The second pooled array's composed term of the arguments. -/
def res_pooled2 (m : (ℓ : Loc nD τ sig) → Buf (Elt F) ℓ) (c : Dev nD) : Buf (Elt F) ((c.tc : Thread nD τ).loc main_v65) :=
  (Host.reduce FloatOps.maximumf (maximumf (addf (mulf (mulf (subf (Host.dotGeneral dot_S50000x16x64_S64x64_S50000x16x64_2_0_01_1_n_n none (Host.gather gather_S100000x64_S50000x16x1_S50000x16x64_2_0_n_n_0_2_164 (m ((c.tc : Thread nD τ).loc main_arg1)) (broadcastInDim S50000x16x1 ![0, 1] bcast_S50000x16_S50000x16x1_0_1 (select (cmpi .slt (m ((c.tc : Thread nD τ).loc main_arg10)) (broadcastInDim S50000x16 ![] bcast_S_S50000x16 (constantI S_ 32 0#32))) (addi (m ((c.tc : Thread nD τ).loc main_arg10)) (broadcastInDim S50000x16 ![] bcast_S_S50000x16 (constantI S_ 32 100000#32))) (m ((c.tc : Thread nD τ).loc main_arg10))))) (m ((c.tc : Thread nD τ).loc main_arg5))) (broadcastInDim S50000x16x64 ![0, 1, 2] bcast_S1x1x64_S50000x16x64_0_1_2 (broadcastInDim S1x1x64 ![2] bcast_S64_S1x1x64_2 (shapeCast _ (extractStridedSlice S1x64 ![2, 0] (m ((c.tc : Thread nD τ).loc main_arg6)) slices_S4x64_S1x64_2_0) shapeCasts_S1x64_S64)))) (broadcastInDim S50000x16x64 ![0, 1, 2] bcast_S1x1x64_S50000x16x64_0_1_2 (broadcastInDim S1x1x64 ![2] bcast_S64_S1x1x64_2 (Host.rsqrt (addf (shapeCast _ (extractStridedSlice S1x64 ![3, 0] (m ((c.tc : Thread nD τ).loc main_arg6)) slices_S4x64_S1x64_3_0) shapeCasts_S1x64_S64) (broadcastInDim S64 ![] bcast_S_S64 (constant S_ .f32 0x3A83126F#32))))))) (broadcastInDim S50000x16x64 ![0, 1, 2] bcast_S1x1x64_S50000x16x64_0_1_2 (broadcastInDim S1x1x64 ![2] bcast_S64_S1x1x64_2 (shapeCast _ (extractStridedSlice S1x64 ![0, 0] (m ((c.tc : Thread nD τ).loc main_arg6)) slices_S4x64_S1x64_0_0) shapeCasts_S1x64_S64)))) (broadcastInDim S50000x16x64 ![0, 1, 2] bcast_S1x1x64_S50000x16x64_0_1_2 (broadcastInDim S1x1x64 ![2] bcast_S64_S1x1x64_2 (shapeCast _ (extractStridedSlice S1x64 ![1, 0] (m ((c.tc : Thread nD τ).loc main_arg6)) slices_S4x64_S1x64_1_0) shapeCasts_S1x64_S64)))) (broadcastInDim S50000x16x64 ![] bcast_S_S50000x16x64 (constant S_ .f32 0x00000000#32))) (constant S_ .f32 0xFF800000#32) reducesTo_S50000x16x64_S50000x64_d1 h_S_)

/-- What the operations after the join make of the joined array, the last weight and the last parameter matrix. -/
def res_afterJoin (x66 : (⟨S50000x192, .f32⟩ : BufTy).Contents (Elt F)) (x7 : (⟨S192x64, .f32⟩ : BufTy).Contents (Elt F)) (x8 : (⟨S4x64, .f32⟩ : BufTy).Contents (Elt F)) : (⟨S50000x64, .f32⟩ : BufTy).Contents (Elt F) :=
  maximumf (addf (mulf (mulf (subf (Host.dotGeneral dot_S50000x192_S192x64_S50000x64_1_0_0_1_n_n none x66 x7) (broadcastInDim S50000x64 ![0, 1] bcast_S1x64_S50000x64_0_1 (broadcastInDim S1x64 ![1] bcast_S64_S1x64_1 (shapeCast _ (extractStridedSlice S1x64 ![2, 0] x8 slices_S4x64_S1x64_2_0) shapeCasts_S1x64_S64)))) (broadcastInDim S50000x64 ![0, 1] bcast_S1x64_S50000x64_0_1 (broadcastInDim S1x64 ![1] bcast_S64_S1x64_1 (Host.rsqrt (addf (shapeCast _ (extractStridedSlice S1x64 ![3, 0] x8 slices_S4x64_S1x64_3_0) shapeCasts_S1x64_S64) (broadcastInDim S64 ![] bcast_S_S64 (constant S_ .f32 0x3A83126F#32))))))) (broadcastInDim S50000x64 ![0, 1] bcast_S1x64_S50000x64_0_1 (broadcastInDim S1x64 ![1] bcast_S64_S1x64_1 (shapeCast _ (extractStridedSlice S1x64 ![0, 0] x8 slices_S4x64_S1x64_0_0) shapeCasts_S1x64_S64)))) (broadcastInDim S50000x64 ![0, 1] bcast_S1x64_S50000x64_0_1 (broadcastInDim S1x64 ![1] bcast_S64_S1x64_1 (shapeCast _ (extractStridedSlice S1x64 ![1, 0] x8 slices_S4x64_S1x64_1_0) shapeCasts_S1x64_S64)))) (broadcastInDim S50000x64 ![] bcast_S_S50000x64 (constant S_ .f32 0x00000000#32))

set_option maxRecDepth 8192 in
/-- The result's composed term of the arguments. -/
def res_main_v91 (m : (ℓ : Loc nD τ sig) → Buf (Elt F) ℓ) (c : Dev nD) : Buf (Elt F) ((c.tc : Thread nD τ).loc main_v91) :=
  maximumf (addf (mulf (mulf (subf (Host.dotGeneral dot_S50000x192_S192x64_S50000x64_1_0_0_1_n_n none (concatenate S50000x192 1 [⟨S50000x64, (m ((c.tc : Thread nD τ).loc main_arg2))⟩, ⟨S50000x64, (Host.reduce FloatOps.maximumf (maximumf (addf (mulf (mulf (subf (Host.dotGeneral dot_S50000x16x32_S32x64_S50000x16x64_2_0_01_1_n_n none (Host.gather gather_S200000x32_S50000x16x1_S50000x16x32_2_0_n_n_0_2_132 (m ((c.tc : Thread nD τ).loc main_arg0)) (broadcastInDim S50000x16x1 ![0, 1] bcast_S50000x16_S50000x16x1_0_1 (select (cmpi .slt (m ((c.tc : Thread nD τ).loc main_arg9)) (broadcastInDim S50000x16 ![] bcast_S_S50000x16 (constantI S_ 32 0#32))) (addi (m ((c.tc : Thread nD τ).loc main_arg9)) (broadcastInDim S50000x16 ![] bcast_S_S50000x16 (constantI S_ 32 200000#32))) (m ((c.tc : Thread nD τ).loc main_arg9))))) (m ((c.tc : Thread nD τ).loc main_arg3))) (broadcastInDim S50000x16x64 ![0, 1, 2] bcast_S1x1x64_S50000x16x64_0_1_2 (broadcastInDim S1x1x64 ![2] bcast_S64_S1x1x64_2 (shapeCast _ (extractStridedSlice S1x64 ![2, 0] (m ((c.tc : Thread nD τ).loc main_arg4)) slices_S4x64_S1x64_2_0) shapeCasts_S1x64_S64)))) (broadcastInDim S50000x16x64 ![0, 1, 2] bcast_S1x1x64_S50000x16x64_0_1_2 (broadcastInDim S1x1x64 ![2] bcast_S64_S1x1x64_2 (Host.rsqrt (addf (shapeCast _ (extractStridedSlice S1x64 ![3, 0] (m ((c.tc : Thread nD τ).loc main_arg4)) slices_S4x64_S1x64_3_0) shapeCasts_S1x64_S64) (broadcastInDim S64 ![] bcast_S_S64 (constant S_ .f32 0x3A83126F#32))))))) (broadcastInDim S50000x16x64 ![0, 1, 2] bcast_S1x1x64_S50000x16x64_0_1_2 (broadcastInDim S1x1x64 ![2] bcast_S64_S1x1x64_2 (shapeCast _ (extractStridedSlice S1x64 ![0, 0] (m ((c.tc : Thread nD τ).loc main_arg4)) slices_S4x64_S1x64_0_0) shapeCasts_S1x64_S64)))) (broadcastInDim S50000x16x64 ![0, 1, 2] bcast_S1x1x64_S50000x16x64_0_1_2 (broadcastInDim S1x1x64 ![2] bcast_S64_S1x1x64_2 (shapeCast _ (extractStridedSlice S1x64 ![1, 0] (m ((c.tc : Thread nD τ).loc main_arg4)) slices_S4x64_S1x64_1_0) shapeCasts_S1x64_S64)))) (broadcastInDim S50000x16x64 ![] bcast_S_S50000x16x64 (constant S_ .f32 0x00000000#32))) (constant S_ .f32 0xFF800000#32) reducesTo_S50000x16x64_S50000x64_d1 h_S_)⟩, ⟨S50000x64, (Host.reduce FloatOps.maximumf (maximumf (addf (mulf (mulf (subf (Host.dotGeneral dot_S50000x16x64_S64x64_S50000x16x64_2_0_01_1_n_n none (Host.gather gather_S100000x64_S50000x16x1_S50000x16x64_2_0_n_n_0_2_164 (m ((c.tc : Thread nD τ).loc main_arg1)) (broadcastInDim S50000x16x1 ![0, 1] bcast_S50000x16_S50000x16x1_0_1 (select (cmpi .slt (m ((c.tc : Thread nD τ).loc main_arg10)) (broadcastInDim S50000x16 ![] bcast_S_S50000x16 (constantI S_ 32 0#32))) (addi (m ((c.tc : Thread nD τ).loc main_arg10)) (broadcastInDim S50000x16 ![] bcast_S_S50000x16 (constantI S_ 32 100000#32))) (m ((c.tc : Thread nD τ).loc main_arg10))))) (m ((c.tc : Thread nD τ).loc main_arg5))) (broadcastInDim S50000x16x64 ![0, 1, 2] bcast_S1x1x64_S50000x16x64_0_1_2 (broadcastInDim S1x1x64 ![2] bcast_S64_S1x1x64_2 (shapeCast _ (extractStridedSlice S1x64 ![2, 0] (m ((c.tc : Thread nD τ).loc main_arg6)) slices_S4x64_S1x64_2_0) shapeCasts_S1x64_S64)))) (broadcastInDim S50000x16x64 ![0, 1, 2] bcast_S1x1x64_S50000x16x64_0_1_2 (broadcastInDim S1x1x64 ![2] bcast_S64_S1x1x64_2 (Host.rsqrt (addf (shapeCast _ (extractStridedSlice S1x64 ![3, 0] (m ((c.tc : Thread nD τ).loc main_arg6)) slices_S4x64_S1x64_3_0) shapeCasts_S1x64_S64) (broadcastInDim S64 ![] bcast_S_S64 (constant S_ .f32 0x3A83126F#32))))))) (broadcastInDim S50000x16x64 ![0, 1, 2] bcast_S1x1x64_S50000x16x64_0_1_2 (broadcastInDim S1x1x64 ![2] bcast_S64_S1x1x64_2 (shapeCast _ (extractStridedSlice S1x64 ![0, 0] (m ((c.tc : Thread nD τ).loc main_arg6)) slices_S4x64_S1x64_0_0) shapeCasts_S1x64_S64)))) (broadcastInDim S50000x16x64 ![0, 1, 2] bcast_S1x1x64_S50000x16x64_0_1_2 (broadcastInDim S1x1x64 ![2] bcast_S64_S1x1x64_2 (shapeCast _ (extractStridedSlice S1x64 ![1, 0] (m ((c.tc : Thread nD τ).loc main_arg6)) slices_S4x64_S1x64_1_0) shapeCasts_S1x64_S64)))) (broadcastInDim S50000x16x64 ![] bcast_S_S50000x16x64 (constant S_ .f32 0x00000000#32))) (constant S_ .f32 0xFF800000#32) reducesTo_S50000x16x64_S50000x64_d1 h_S_)⟩] concatenates_S50000x64_S50000x64_S50000x64_S50000x192_d1) (m ((c.tc : Thread nD τ).loc main_arg7))) (broadcastInDim S50000x64 ![0, 1] bcast_S1x64_S50000x64_0_1 (broadcastInDim S1x64 ![1] bcast_S64_S1x64_1 (shapeCast _ (extractStridedSlice S1x64 ![2, 0] (m ((c.tc : Thread nD τ).loc main_arg8)) slices_S4x64_S1x64_2_0) shapeCasts_S1x64_S64)))) (broadcastInDim S50000x64 ![0, 1] bcast_S1x64_S50000x64_0_1 (broadcastInDim S1x64 ![1] bcast_S64_S1x64_1 (Host.rsqrt (addf (shapeCast _ (extractStridedSlice S1x64 ![3, 0] (m ((c.tc : Thread nD τ).loc main_arg8)) slices_S4x64_S1x64_3_0) shapeCasts_S1x64_S64) (broadcastInDim S64 ![] bcast_S_S64 (constant S_ .f32 0x3A83126F#32))))))) (broadcastInDim S50000x64 ![0, 1] bcast_S1x64_S50000x64_0_1 (broadcastInDim S1x64 ![1] bcast_S64_S1x64_1 (shapeCast _ (extractStridedSlice S1x64 ![0, 0] (m ((c.tc : Thread nD τ).loc main_arg8)) slices_S4x64_S1x64_0_0) shapeCasts_S1x64_S64)))) (broadcastInDim S50000x64 ![0, 1] bcast_S1x64_S50000x64_0_1 (broadcastInDim S1x64 ![1] bcast_S64_S1x64_1 (shapeCast _ (extractStridedSlice S1x64 ![1, 0] (m ((c.tc : Thread nD τ).loc main_arg8)) slices_S4x64_S1x64_1_0) shapeCasts_S1x64_S64)))) (broadcastInDim S50000x64 ![] bcast_S_S50000x64 (constant S_ .f32 0x00000000#32))

/-- The same term under the name of the program's first (and only) returned value. -/
abbrev res_out0 (m : (ℓ : Loc nD τ sig) → Buf (Elt F) ℓ) (c : Dev nD) : Buf (Elt F) ((c.tc : Thread nD τ).loc main_v91) := res_main_v91 m c

/-- The result's composed term is the after-join term of the join of the own features and the two pooled terms. -/
theorem res_main_v91_eq (m : (ℓ : Loc nD τ sig) → Buf (Elt F) ℓ) (c : Dev nD) :
    res_main_v91 m c = res_afterJoin (concatenate S50000x192 1 [⟨S50000x64, (m ((c.tc : Thread nD τ).loc main_arg2))⟩, ⟨S50000x64, (res_pooled1 m c)⟩, ⟨S50000x64, (res_pooled2 m c)⟩] concatenates_S50000x64_S50000x64_S50000x64_S50000x192_d1)
      (m ((c.tc : Thread nD τ).loc main_arg7)) (m ((c.tc : Thread nD τ).loc main_arg8)) := by
  unfold res_main_v91 res_afterJoin res_pooled1 res_pooled2
  rfl

set_option maxRecDepth 16384 in
set_option maxHeartbeats 42800000 in
/-- After the first stretch the first pooled buffer holds its composed term. -/
theorem before_pooled1 (m : (ℓ : Loc nD τ sig) → Buf (Elt F) ℓ) (c : Dev nD) :
    after opsBefore (launchContents m c) (Proc.devRef .tc main_v32) = res_pooled1 m c := by
  after_results_simp <;> rfl <;> (unfold res_pooled1; rfl)

set_option maxRecDepth 16384 in
set_option maxHeartbeats 42800000 in
/-- After the first stretch the second pooled buffer holds its composed term. -/
theorem before_pooled2 (m : (ℓ : Loc nD τ sig) → Buf (Elt F) ℓ) (c : Dev nD) :
    after opsBefore (launchContents m c) (Proc.devRef .tc main_v65) = res_pooled2 m c := by
  after_results_simp <;> rfl <;> (unfold res_pooled2; rfl)

set_option maxRecDepth 16384 in
set_option maxHeartbeats 42800000 in
/-- The first stretch leaves the own features as they were. -/
theorem before_arg2 (m : (ℓ : Loc nD τ sig) → Buf (Elt F) ℓ) (c : Dev nD) :
    after opsBefore (launchContents m c) (Proc.devRef .tc main_arg2) = m ((c.tc : Thread nD τ).loc main_arg2) := by
  after_results_simp <;> rfl

set_option maxRecDepth 16384 in
set_option maxHeartbeats 42800000 in
/-- The first stretch leaves the last weight as it was. -/
theorem before_arg7 (m : (ℓ : Loc nD τ sig) → Buf (Elt F) ℓ) (c : Dev nD) :
    after opsBefore (launchContents m c) (Proc.devRef .tc main_arg7) = m ((c.tc : Thread nD τ).loc main_arg7) := by
  after_results_simp <;> rfl

set_option maxRecDepth 16384 in
set_option maxHeartbeats 42800000 in
/-- The first stretch leaves the last parameter matrix as it was. -/
theorem before_arg8 (m : (ℓ : Loc nD τ sig) → Buf (Elt F) ℓ) (c : Dev nD) :
    after opsBefore (launchContents m c) (Proc.devRef .tc main_arg8) = m ((c.tc : Thread nD τ).loc main_arg8) := by
  after_results_simp <;> rfl

/-- The join writes the joined array from its three operands as the valuation holds them. -/
theorem join_result (S : Valuation τ sig (Elt F))
    (x2 : ((Proc.devRef .tc main_arg2) : DevRef τ sig).ty.Contents (Elt F)) (x32 : ((Proc.devRef .tc main_v32) : DevRef τ sig).ty.Contents (Elt F))
    (x65 : ((Proc.devRef .tc main_v65) : DevRef τ sig).ty.Contents (Elt F))
    (h2 : S (Proc.devRef .tc main_arg2) = x2) (h32 : S (Proc.devRef .tc main_v32) = x32) (h65 : S (Proc.devRef .tc main_v65) = x65) :
    (joinOp (F := F)).result S (Proc.devRef .tc main_v66) = concatenate S50000x192 1 [⟨S50000x64, x2⟩, ⟨S50000x64, x32⟩, ⟨S50000x64, x65⟩] concatenates_S50000x64_S50000x64_S50000x64_S50000x192_d1 := by
  subst h2 h32 h65
  exact nary_result _ _ _ _ _ S

/-- The join leaves the last weight as it was. -/
theorem join_arg7 (S : Valuation τ sig (Elt F)) : (joinOp (F := F)).result S (Proc.devRef .tc main_arg7) = S (Proc.devRef .tc main_arg7) := by
  rw [nary_result_ne]; decide

/-- The join leaves the last parameter matrix as it was. -/
theorem join_arg8 (S : Valuation τ sig (Elt F)) : (joinOp (F := F)).result S (Proc.devRef .tc main_arg8) = S (Proc.devRef .tc main_arg8) := by
  rw [nary_result_ne]; decide

set_option maxRecDepth 16384 in
set_option maxHeartbeats 42800000 in
/-- The last stretch, from any valuation: the result is the after-join term of what the valuation holds in the joined
    array, the last weight and the last parameter matrix. -/
theorem after_join (S : Valuation τ sig (Elt F)) :
    after opsAfter S (Proc.devRef .tc main_v91) = res_afterJoin (S (Proc.devRef .tc main_v66)) (S (Proc.devRef .tc main_arg7)) (S (Proc.devRef .tc main_arg8)) := by
  after_results_simp <;> rfl <;> (unfold res_afterJoin; rfl)

/-- The whole line, for the result: the three stretches put together. -/
theorem result_term (m : (ℓ : Loc nD τ sig) → Buf (Elt F) ℓ) (c : Dev nD) :
    after ops (launchContents m c) (Proc.devRef .tc main_v91) = res_main_v91 m c := by
  rw [ops_eq, after_append, after_cons, after_join,
    join_result _ _ _ _ (before_arg2 m c) (before_pooled1 m c) (before_pooled2 m c), join_arg7, join_arg8, before_arg7,
    before_arg8]
  exact (res_main_v91_eq m c).symm

set_option maxRecDepth 8192 in
set_option maxHeartbeats 42800000 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v91) = res_main_v91 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v91).trans (result_term m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl)⟩)
    (run_seq scopedRefs_eq scopedSems_eq defs main (fun _ => ops) main_eq (fun _ => ops_sub) m ρ)

end Cert.ReferenceIdeal.ValueP

end
-- ==== Proof.LibRowsAndSlabs.lean ====
/-
  Three small re-layings read at an entry, for any extents and element type, and the affine normalisation followed by
  a rectifier that is built from them, on the extended reals.

  * A slab of unit thickness cut out of an [n0, n1, n2] array at position k of its middle axis and flattened to an
    [n0, n2] matrix holds, at (p, e), the array's entry (p, k, e).
  * Row r of an [a, b] matrix, cut out as a [1, b] block and flattened to a vector, holds at q the matrix's entry (r, q).
  * A vector of length b laid out as one row and repeated down a rows holds, at (p, q), the vector's entry q.
  * With the four rows of a [4, b] parameter matrix read as scale (row 0), shift (row 1), centre (row 2) and spread (row 3),
    the map  x ↦ max (((x - centre) · rsqrt (spread + e)) · scale + shift) z  applied entry by entry to a matrix, column q
    taking column q's parameters.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibRowsAndSlabs

open Idealize.ShloMosaic Idealize.ShloMosaic.ValueIdx

variable {α : Type}

/-- A slab of thickness one at position k of the middle axis fits only if k is a position of that axis. -/
theorem slab_lt {n0 n1 n2 k : ℕ} (hs : (⟨3, ![n0, n1, n2]⟩ : Shape).Slices ![0, k, 0] ⟨3, ![n0, 1, n2]⟩) : k < n1 := by
  obtain ⟨_, h⟩ := hs
  exact h 1

/-- A one-row block at row r fits only if r is a row. -/
theorem row_lt {a b r : ℕ} (hs : (⟨2, ![a, b]⟩ : Shape).Slices ![r, 0] ⟨2, ![1, b]⟩) : r < a := by
  obtain ⟨_, h⟩ := hs
  exact h 0

/-- The slab at position k of the middle axis, flattened to a matrix, read at (p, e): the array at (p, k, e). -/
theorem slabAsMatrix_apply {n0 n1 n2 : ℕ} (k : ℕ) (X : (⟨3, ![n0, n1, n2]⟩ : Shape).Idx → α)
    (hs : (⟨3, ![n0, n1, n2]⟩ : Shape).Slices ![0, k, 0] ⟨3, ![n0, 1, n2]⟩)
    (hc : (⟨3, ![n0, 1, n2]⟩ : Shape).ShapeCasts ⟨2, ![n0, n2]⟩) (p : Fin n0) (e : Fin n2) :
    shapeCast ⟨2, ![n0, n2]⟩ (extractStridedSlice ⟨3, ![n0, 1, n2]⟩ ![0, k, 0] X hs) hc (ix2 p e)
      = X (ix3 p ⟨k, slab_lt hs⟩ e) := by
  rw [shapeCast_apply _ hc (ix2 p e) (ix3 p (0 : Fin 1) e) (by
    rw [Shape.rowMajor_val_three, Shape.rowMajor_val_two]
    show (p.val * 1 + 0) * n2 + e.val = p.val * n2 + e.val
    rw [Nat.mul_one, Nat.add_zero])]
  exact slice3_axis1_apply k X hs p (0 : Fin 1) e ⟨k, slab_lt hs⟩ rfl

/-- Row r of a matrix as a vector, read at q: the matrix at (r, q). -/
theorem rowAsVector_apply {a b : ℕ} (r : ℕ) (X : (⟨2, ![a, b]⟩ : Shape).Idx → α)
    (hs : (⟨2, ![a, b]⟩ : Shape).Slices ![r, 0] ⟨2, ![1, b]⟩)
    (hc : (⟨2, ![1, b]⟩ : Shape).ShapeCasts ⟨1, ![b]⟩) (q : Fin b) :
    shapeCast ⟨1, ![b]⟩ (extractStridedSlice ⟨2, ![1, b]⟩ ![r, 0] X hs) hc (ix1 q) = X (ix2 ⟨r, row_lt hs⟩ q) := by
  rw [shapeCast_1a_a_apply]
  exact slice2_axis0_apply r X hs (0 : Fin 1) q ⟨r, row_lt hs⟩ rfl

/-- A vector laid out as one row and repeated down the rows, read at (p, q): the vector at q. -/
theorem rowDown_apply {a b : ℕ} (v : (⟨1, ![b]⟩ : Shape).Idx → α)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ v hc) hb (ix2 p q) = v (ix1 q) := by
  rw [broadcastTo_1b_ab_apply, shapeCast_a_1a_apply]

/-- The normalisation and rectifier of one value in column q: centre, scale by the reciprocal root of the spread plus
    e, scale, shift, and take the maximum with z. -/
def normRect {b : ℕ} (P : (⟨2, ![4, b]⟩ : Shape).Idx → EReal) (e z : EReal) (q : Fin b) (x : EReal) : EReal :=
  max ((x - P (ix2 2 q)) * Ideal.rsqrt (P (ix2 3 q) + e) * P (ix2 0 q) + P (ix2 1 q)) z

/-- The normalisation and rectifier never go below z. -/
theorem le_normRect {b : ℕ} (P : (⟨2, ![4, b]⟩ : Shape).Idx → EReal) (e z : EReal) (q : Fin b) (x : EReal) :
    z ≤ normRect P e z q x := le_max_right _ _

/-- The vector program of the normalisation and rectifier — each parameter row cut out, flattened, laid out as a row
    and repeated down the matrix; the spread's row shifted by e and its reciprocal root taken before it is spread —
    read at (p, q) is `normRect` of the matrix's entry. -/
theorem normRect_apply {a b : ℕ} (H : FVec Ideal ⟨2, ![a, b]⟩ .f32) (P : FVec Ideal ⟨2, ![4, b]⟩ .f32) (e z : Ideal .f32)
    (hs0 : (⟨2, ![4, b]⟩ : Shape).Slices ![0, 0] ⟨2, ![1, b]⟩) (hs1 : (⟨2, ![4, b]⟩ : Shape).Slices ![1, 0] ⟨2, ![1, b]⟩)
    (hs2 : (⟨2, ![4, b]⟩ : Shape).Slices ![2, 0] ⟨2, ![1, b]⟩) (hs3 : (⟨2, ![4, b]⟩ : Shape).Slices ![3, 0] ⟨2, ![1, b]⟩)
    (hc : (⟨2, ![1, b]⟩ : Shape).ShapeCasts ⟨1, ![b]⟩) (hc' : (⟨1, ![b]⟩ : Shape).ShapeCasts ⟨2, ![1, b]⟩)
    (hb : (⟨2, ![1, b]⟩ : Shape).Broadcasts ⟨2, ![a, b]⟩) (p : Fin a) (q : Fin b) :
    maximumf (addf (mulf (mulf (subf H
        (broadcastTo ⟨2, ![a, b]⟩ (shapeCast ⟨2, ![1, b]⟩ (shapeCast ⟨1, ![b]⟩ (extractStridedSlice ⟨2, ![1, b]⟩ ![2, 0] P hs2) hc) hc') hb))
        (broadcastTo ⟨2, ![a, b]⟩ (shapeCast ⟨2, ![1, b]⟩ (rsqrt (addf (shapeCast ⟨1, ![b]⟩ (extractStridedSlice ⟨2, ![1, b]⟩ ![3, 0] P hs3) hc) (broadcast ⟨1, ![b]⟩ e))) hc') hb))
        (broadcastTo ⟨2, ![a, b]⟩ (shapeCast ⟨2, ![1, b]⟩ (shapeCast ⟨1, ![b]⟩ (extractStridedSlice ⟨2, ![1, b]⟩ ![0, 0] P hs0) hc) hc') hb))
        (broadcastTo ⟨2, ![a, b]⟩ (shapeCast ⟨2, ![1, b]⟩ (shapeCast ⟨1, ![b]⟩ (extractStridedSlice ⟨2, ![1, b]⟩ ![1, 0] P hs1) hc) hc') hb))
      (broadcast ⟨2, ![a, b]⟩ z) (ix2 p q)
      = normRect P e z q (H (ix2 p q)) := by
  rw [maximumf_apply, addf_apply, mulf_apply, mulf_apply, subf_apply, rowDown_apply, rowDown_apply, rowDown_apply,
    rowDown_apply, rowAsVector_apply, rowAsVector_apply, rowAsVector_apply]
  show max ((H (ix2 p q) - _) * Ideal.rsqrt (shapeCast ⟨1, ![b]⟩ (extractStridedSlice ⟨2, ![1, b]⟩ ![3, 0] P hs3) hc (ix1 q) + e) * _ + _) z = _
  rw [rowAsVector_apply]
  rfl

end Cert.LibRowsAndSlabs

end
-- ==== Proof.LibJoinThree.lean ====
/-
  Three arrays of one shape joined along an axis, read at an index.

  If `t` is the join of three arrays `x₀, x₁, x₂` of shape `s` along axis `a`, then at an index `j` whose coordinate on
  that axis is `k` extents of `s` plus `r` (with `r` inside one extent) the join holds `x_k` at the index that has `r` on
  the axis and `j`'s coordinates elsewhere. For any shapes, any axis and any element type.
-/
import Idealize.ShloMosaic.Lib.Pipeline.Value

namespace JoinThree

open Idealize.ShloMosaic

variable {α : Type}

/-- The join of three arrays of shape `s` along axis `a`, at an index in the first array's span: the first array there. -/
theorem first {t s : Shape} (a : Fin t.rank) (x₀ x₁ x₂ : s.Idx → α)
    (h : Shape.Concatenates [s, s, s] t a) (hr : s.rank = t.rank) (j : t.Idx) (i : s.Idx)
    (hi : ∀ b : Fin s.rank, b.cast hr ≠ a → (i b).val = (j (b.cast hr)).val)
    (ha : 0 + (i (a.cast hr.symm)).val = (j a).val) :
    concatenate t a [⟨s, x₀⟩, ⟨s, x₁⟩, ⟨s, x₂⟩] h j = x₀ i :=
  concatenate_apply_piece a [⟨s, x₀⟩, ⟨s, x₁⟩, ⟨s, x₂⟩] h j 0 (by simp) s x₀ rfl hr 0 (by simp) i hi ha

/-- At an index in the second array's span (one extent in): the second array there. -/
theorem second {t s : Shape} (a : Fin t.rank) (x₀ x₁ x₂ : s.Idx → α)
    (h : Shape.Concatenates [s, s, s] t a) (hr : s.rank = t.rank) (j : t.Idx) (i : s.Idx)
    (hi : ∀ b : Fin s.rank, b.cast hr ≠ a → (i b).val = (j (b.cast hr)).val)
    (ha : s.size (a.cast hr.symm) + (i (a.cast hr.symm)).val = (j a).val) :
    concatenate t a [⟨s, x₀⟩, ⟨s, x₁⟩, ⟨s, x₂⟩] h j = x₁ i :=
  concatenate_apply_piece a [⟨s, x₀⟩, ⟨s, x₁⟩, ⟨s, x₂⟩] h j 1 (by simp) s x₁ rfl hr (s.size (a.cast hr.symm)) (by simp [hr]) i hi ha

/-- At an index in the third array's span (two extents in): the third array there. -/
theorem third {t s : Shape} (a : Fin t.rank) (x₀ x₁ x₂ : s.Idx → α)
    (h : Shape.Concatenates [s, s, s] t a) (hr : s.rank = t.rank) (j : t.Idx) (i : s.Idx)
    (hi : ∀ b : Fin s.rank, b.cast hr ≠ a → (i b).val = (j (b.cast hr)).val)
    (ha : (s.size (a.cast hr.symm) + s.size (a.cast hr.symm)) + (i (a.cast hr.symm)).val = (j a).val) :
    concatenate t a [⟨s, x₀⟩, ⟨s, x₁⟩, ⟨s, x₂⟩] h j = x₂ i :=
  concatenate_apply_piece a [⟨s, x₀⟩, ⟨s, x₁⟩, ⟨s, x₂⟩] h j 2 (by simp) s x₂ rfl hr (s.size (a.cast hr.symm) + s.size (a.cast hr.symm)) (by simp [hr]) i hi ha

end JoinThree
-- ==== Proof.Spec.lean ====
/-
  The function both programs compute, entry by entry, on the extended reals.

  For a target row n and output column q:
    * each of the row's 16 gathered neighbours k is projected (a dot product of its feature row with column d of the weight),
      normalised with column d's parameters and rectified;  the row's pooled feature in column d is the largest of the 16;
    * this is done for both scales; the row's own 64 features, the 64 pooled features of the first scale and the 64 of the
      second are laid side by side as 192 numbers;
    * the output is that row of 192 times column q of the last weight, normalised with column q's parameters and rectified.

  One program pools by a running maximum that starts at the rectifier's floor and takes the neighbours in order; the
  other by a fold of the maximum from the bottom element. Because every rectified value is at least the floor, both are
  the largest of the 16 (`runningMax_eq`, `foldMax_eq`).
-/
import proofs.«171359_j52956946760189_2_alg».proof.Proof.LibRowsAndSlabs
import proofs.«171359_j52956946760189_2_alg».proof.Proof.LibJoinThree

noncomputable section

namespace Cert.Spec

open Idealize.ShloMosaic Idealize.ShloMosaic.ValueIdx Cert.LibRowsAndSlabs

/-- The shift added to the spread before its reciprocal root is taken (the same word in both programs). -/
abbrev eps : EReal := Ideal.ofBits .f32 0x3A83126F#32
/-- The rectifier's floor. -/
abbrev floor : EReal := Ideal.ofBits .f32 0x00000000#32

/-- The largest of 16 values: the fold of the maximum from the bottom element. -/
def largest (f : Fin 16 → EReal) : EReal := Finset.univ.fold max ⊥ f

/-- The running maximum of 16 values taken in order from a start value. -/
def runningMax (z : EReal) (f : Fin 16 → EReal) : EReal :=
  max (max (max (max (max (max (max (max (max (max (max (max (max (max (max (max z (f 0)) (f 1)) (f 2)) (f 3)) (f 4)) (f 5))
    (f 6)) (f 7)) (f 8)) (f 9)) (f 10)) (f 11)) (f 12)) (f 13)) (f 14)) (f 15)

/-- Started no higher than the first value, the running maximum is the largest value. -/
theorem runningMax_eq (z : EReal) (f : Fin 16 → EReal) (hz : z ≤ f 0) : runningMax z f = largest f := by
  have hle : ∀ k : Fin 16, f k ≤ largest f := fun k =>
    (Finset.le_fold_max _).2 (Or.inr ⟨k, Finset.mem_univ k, le_rfl⟩)
  apply le_antisymm
  · unfold runningMax
    simp only [max_le_iff]
    exact ⟨⟨⟨⟨⟨⟨⟨⟨⟨⟨⟨⟨⟨⟨⟨⟨hz.trans (hle 0), hle 0⟩, hle 1⟩, hle 2⟩, hle 3⟩, hle 4⟩, hle 5⟩, hle 6⟩, hle 7⟩, hle 8⟩, hle 9⟩,
      hle 10⟩, hle 11⟩, hle 12⟩, hle 13⟩, hle 14⟩, hle 15⟩
  · unfold largest
    rw [Finset.fold_max_le]
    refine ⟨bot_le, fun k _ => ?_⟩
    unfold runningMax
    fin_cases k <;> simp [le_max_iff]

/-- The fold of the maximum over the 16 positions from the word of minus infinity is the largest value. -/
theorem foldMax_eq (f : Fin 16 → EReal) :
    Finset.univ.fold max (Ideal.ofBits .f32 0xFF800000#32) f = largest f := by
  have h : Ideal.ofBits .f32 0xFF800000#32 = (⊥ : EReal) := by simp [Ideal.ofBits, Ideal.ieee]
  rw [h]
  rfl

/-- One neighbour's feature in column d: projected, normalised, rectified. -/
def neighbour {C : ℕ} (g : Fin 16 → Fin C → EReal) (W : (⟨2, ![C, 64]⟩ : Shape).Idx → EReal)
    (P : (⟨2, ![4, 64]⟩ : Shape).Idx → EReal) (d : Fin 64) (k : Fin 16) : EReal :=
  normRect P eps floor d (∑ c : Fin C, g k c * W (ix2 c d))

/-- Every neighbour's feature is at least the floor. -/
theorem floor_le_neighbour {C : ℕ} (g : Fin 16 → Fin C → EReal) (W : (⟨2, ![C, 64]⟩ : Shape).Idx → EReal)
    (P : (⟨2, ![4, 64]⟩ : Shape).Idx → EReal) (d : Fin 64) (k : Fin 16) : floor ≤ neighbour g W P d k :=
  le_normRect _ _ _ _ _

/-- The pooled feature in column d: the largest of the 16 neighbours' features. -/
def pooled {C : ℕ} (g : Fin 16 → Fin C → EReal) (W : (⟨2, ![C, 64]⟩ : Shape).Idx → EReal)
    (P : (⟨2, ![4, 64]⟩ : Shape).Idx → EReal) (d : Fin 64) : EReal :=
  largest (neighbour g W P d)

/-- Three rows of 64 laid side by side as one row of 192. -/
def sideBySide (x y z : Fin 64 → EReal) (j : Fin 192) : EReal :=
  if h : j.val < 64 then x ⟨j.val, h⟩
  else if h' : j.val < 128 then y ⟨j.val - 64, by omega⟩
  else z ⟨j.val - 128, by omega⟩

/-- Three matrices of 64 columns joined along the columns, read at (p, j): the side-by-side row of their rows p. -/
theorem sideBySide_apply {R : ℕ} (a b c : (⟨2, ![R, 64]⟩ : Shape).Idx → EReal)
    (h : Shape.Concatenates [(⟨2, ![R, 64]⟩ : Shape), ⟨2, ![R, 64]⟩, ⟨2, ![R, 64]⟩] ⟨2, ![R, 192]⟩ 1) (p : Fin R) (j : Fin 192) :
    concatenate (⟨2, ![R, 192]⟩ : Shape) 1 [⟨⟨2, ![R, 64]⟩, a⟩, ⟨⟨2, ![R, 64]⟩, b⟩, ⟨⟨2, ![R, 64]⟩, c⟩] h (ix2 p j)
      = sideBySide (fun d => a (ix2 p d)) (fun d => b (ix2 p d)) (fun d => c (ix2 p d)) j := by
  unfold sideBySide
  have hj := j.isLt
  split_ifs with h1 h2
  · exact JoinThree.first (t := ⟨2, ![R, 192]⟩) (s := ⟨2, ![R, 64]⟩) 1 a b c h rfl (ix2 p j) (ix2 p ⟨j.val, h1⟩)
      (fun ax hax => by match ax with | ⟨0, _⟩ => rfl | ⟨1, _⟩ => exact absurd rfl hax) (Nat.zero_add _)
  · exact JoinThree.second (t := ⟨2, ![R, 192]⟩) (s := ⟨2, ![R, 64]⟩) 1 a b c h rfl (ix2 p j) (ix2 p ⟨j.val - 64, by omega⟩)
      (fun ax hax => by match ax with | ⟨0, _⟩ => rfl | ⟨1, _⟩ => exact absurd rfl hax)
      (by show 64 + (j.val - 64) = j.val; omega)
  · exact JoinThree.third (t := ⟨2, ![R, 192]⟩) (s := ⟨2, ![R, 64]⟩) 1 a b c h rfl (ix2 p j) (ix2 p ⟨j.val - 128, by omega⟩)
      (fun ax hax => by match ax with | ⟨0, _⟩ => rfl | ⟨1, _⟩ => exact absurd rfl hax)
      (by show (64 + 64) + (j.val - 128) = j.val; omega)

/-- The output entry of a target row in column q, from the row's own features x, its gathered neighbours at the two
    scales, and the parameters. -/
def rowOut (x : Fin 64 → EReal) (g1 : Fin 16 → Fin 32 → EReal) (g2 : Fin 16 → Fin 64 → EReal)
    (W1 : (⟨2, ![32, 64]⟩ : Shape).Idx → EReal) (P1 : (⟨2, ![4, 64]⟩ : Shape).Idx → EReal)
    (W2 : (⟨2, ![64, 64]⟩ : Shape).Idx → EReal) (P2 : (⟨2, ![4, 64]⟩ : Shape).Idx → EReal)
    (Wo : (⟨2, ![192, 64]⟩ : Shape).Idx → EReal) (Po : (⟨2, ![4, 64]⟩ : Shape).Idx → EReal) (q : Fin 64) : EReal :=
  normRect Po eps floor q
    (∑ j : Fin 192, sideBySide x (pooled g1 W1 P1) (pooled g2 W2 P2) j * Wo (ix2 j q))

/-- The whole result: entry (n, q) from the arrays of all target rows. -/
def G (G1 : (⟨3, ![50000, 16, 32]⟩ : Shape).Idx → EReal) (G2 : (⟨3, ![50000, 16, 64]⟩ : Shape).Idx → EReal)
    (X : (⟨2, ![50000, 64]⟩ : Shape).Idx → EReal)
    (W1 : (⟨2, ![32, 64]⟩ : Shape).Idx → EReal) (P1 : (⟨2, ![4, 64]⟩ : Shape).Idx → EReal)
    (W2 : (⟨2, ![64, 64]⟩ : Shape).Idx → EReal) (P2 : (⟨2, ![4, 64]⟩ : Shape).Idx → EReal)
    (Wo : (⟨2, ![192, 64]⟩ : Shape).Idx → EReal) (Po : (⟨2, ![4, 64]⟩ : Shape).Idx → EReal) :
    (⟨2, ![50000, 64]⟩ : Shape).Idx → EReal := fun i =>
  rowOut (fun d => X (ix2 (i 0) d)) (fun k c => G1 (ix3 (i 0) k c)) (fun k c => G2 (ix3 (i 0) k c)) W1 P1 W2 P2 Wo Po (i 1)

end Cert.Spec

end
-- ==== Proof.LibMatmulPlain.lean ====
/-
  The product of an [M, K] matrix by a [K, N] matrix, read at an entry, on the extended reals, for any extents and
  element formats: entry (p, n) of the product taken into a zero accumulator is the sum over k of the left matrix's
  (p, k) entry times the right matrix's (k, n) entry; taken into an accumulator acc it is acc's entry plus that sum.
-/
import Idealize.ShloMosaic.PureOps.Ideal.Laws
import Idealize.ShloMosaic.Lib.ValueIdx

noncomputable section

namespace Cert.LibMatmulPlain

open Idealize.ShloMosaic Idealize.ShloMosaic.ValueIdx

/-- The dimension numbers of a plain matrix product: contract the left matrix's columns with the right one's rows. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's row coordinate is the output entry's row. -/
theorem lhsIdx_row (j : (⟨2, ![M, N]⟩ : Shape).Idx) (q : (plainDims M K N wf).contr.Idx) :
    ((plainDims M K N wf).lhsIdx j q 0).val = (j 0).val := by
  unfold DotDims.lhsIdx
  rw [dif_neg (show ¬(0 : Fin 2) ∈ (plainDims M K N wf).lhsBatch from List.not_mem_nil),
    dif_pos (show (0 : Fin 2) ∈ (plainDims M K N wf).lhsNonContracting from List.mem_singleton.mpr rfl)]
  rfl

/-- The right operand's column coordinate is the output entry's column. -/
theorem rhsIdx_col (j : (⟨2, ![M, N]⟩ : Shape).Idx) (q : (plainDims M K N wf).contr.Idx) :
    ((plainDims M K N wf).rhsIdx j q 1).val = (j 1).val := by
  unfold DotDims.rhsIdx
  rw [dif_neg (show ¬(1 : Fin 2) ∈ (plainDims M K N wf).rhsBatch from List.not_mem_nil),
    dif_pos (show (1 : Fin 2) ∈ (plainDims M K N wf).rhsNonContracting from List.mem_singleton.mpr rfl)]
  rfl

/-- The left operand's index for output entry (p, n) and contraction index k is (p, k). -/
theorem lhsIdx_eq (p : Fin M) (n : Fin N) (k : Fin K) :
    (plainDims M K N wf).lhsIdx (ix2 p n) ((contrEquiv1 (plainDims M K N wf) K rfl rfl).symm k) = ix2 p k := by
  have hk := contrEquiv1_symm_val (plainDims M K N wf) K rfl rfl k
  funext a
  refine Fin.ext ?_
  match a with
  | ⟨0, _⟩ => exact lhsIdx_row wf _ _
  | ⟨1, _⟩ => exact ((plainDims M K N wf).lhsIdx_val_of_single rfl _ _).trans hk

/-- The right operand's index for output entry (p, n) and contraction index k is (k, n). -/
theorem rhsIdx_eq (p : Fin M) (n : Fin N) (k : Fin K) :
    (plainDims M K N wf).rhsIdx (ix2 p n) ((contrEquiv1 (plainDims M K N wf) K rfl rfl).symm k) = ix2 k n := by
  have hk := contrEquiv1_symm_val (plainDims M K N wf) K rfl rfl k
  funext a
  refine Fin.ext ?_
  match a with
  | ⟨0, _⟩ => exact ((plainDims M K N wf).rhsIdx_val_of_single rfl _ _).trans hk
  | ⟨1, _⟩ => exact rhsIdx_col wf _ _

/-- Entry (p, n) of the product taken into an accumulator: the accumulator's entry plus the K-term sum. -/
theorem matmul_apply {φ₁ φ₂ : FTy} (prec : Option ContractPrecision)
    (lhs : FVec Ideal ⟨2, ![M, K]⟩ φ₁) (rhs : FVec Ideal ⟨2, ![K, N]⟩ φ₂) (acc : FVec Ideal ⟨2, ![M, N]⟩ .f32)
    (p : Fin M) (n : Fin N) :
    FloatOps.matmul (plainDims M K N wf) prec lhs rhs acc (ix2 p n)
      = acc (ix2 p n) + ∑ k : Fin K, lhs (ix2 p k) * rhs (ix2 k n) := by
  rw [Ideal.matmul_apply, ← Equiv.sum_comp (contrEquiv1 (plainDims M K N wf) K rfl rfl).symm]
  refine congrArg (acc (ix2 p n) + ·) (Finset.sum_congr rfl fun k _ => ?_)
  rw [lhsIdx_eq wf p n k, rhsIdx_eq wf p n k]

/-- Entry (p, n) of the product taken into the zero accumulator: the K-term sum alone. -/
theorem matmul_zero_apply {φ₁ φ₂ : FTy} (prec : Option ContractPrecision)
    (lhs : FVec Ideal ⟨2, ![M, K]⟩ φ₁) (rhs : FVec Ideal ⟨2, ![K, N]⟩ φ₂) (p : Fin M) (n : Fin N) :
    FloatOps.matmul (plainDims M K N wf) prec lhs rhs (constant ⟨2, ![M, N]⟩ .f32 0x00000000#32) (ix2 p n)
      = ∑ k : Fin K, lhs (ix2 p k) * rhs (ix2 k n) := by
  rw [matmul_apply wf prec lhs rhs _ p n]
  show Ideal.ofBits .f32 0x00000000#32 + _ = _
  rw [Ideal.ofBits_zero_f32, zero_add]

end Cert.LibMatmulPlain

end
-- ==== Proof.KernelBlock.lean ====
/-
  One grid point's block of the kernel, entry by entry.

  The body's one store holds, at row p and column q of the point's 1000-row block, the output entry of the specification
  computed from the point's blocks: row p of the block of own features, the 16 neighbour rows (p, k, ·) of each gathered
  block, and the parameters. Each of the 32 neighbour steps is a product of a slab of a gathered block with a weight, the
  normalisation and rectifier, and a maximum with what the earlier neighbours left; the last step joins three 64-column
  blocks side by side, multiplies by the last weight, normalises and rectifies.
-/
import proofs.«171359_j52956946760189_2_alg».proof.Proof.Gen.KernelIdeal.Frame
import proofs.«171359_j52956946760189_2_alg».proof.Proof.Spec
import proofs.«171359_j52956946760189_2_alg».proof.Proof.LibMatmulPlain
import proofs.«171359_j52956946760189_2_alg».proof.Proof.LibJoinThree

noncomputable section

namespace Cert.KernelIdeal.Block

open Cert.KernelIdeal Cert.KernelIdeal.Gen Idealize.ShloMosaic Idealize.ShloMosaic.ValueIdx Cert.LibRowsAndSlabs Cert.Spec

theorem hz2 : (![0, 0] : Fin 2 → Nat) = fun _ => 0 := funext fun a => by fin_cases a <;> rfl
theorem hz3 : (![0, 0, 0] : Fin 3 → Nat) = fun _ => 0 := funext fun a => by fin_cases a <;> rfl

/-- The product of neighbour slab k of a gathered block of the first scale with the weight, at (p, d): the 32-term sum. -/
theorem proj32_apply (k : ℕ) (v : FVec Ideal S1000x16x32 .f32) (w : FVec Ideal S32x64 .f32)
    (hs : S1000x16x32.Slices ![0, k, 0] S1000x1x32) (p : Fin 1000) (d : Fin 64) :
    matmul dot_S1000x32_S32x64_S1000x64_1_0_0_1_n_n none
      (truncf .bf16 (shapeCast S1000x32 (extractStridedSlice S1000x1x32 ![0, k, 0] v hs) shapeCasts_S1000x1x32_S1000x32) bitsLt_bf16_f32)
      (truncf .bf16 w bitsLt_bf16_f32) (constant S1000x64 .f32 0x00000000#32) (ix2 p d)
    = ∑ c : Fin 32, v (ix3 p ⟨k, slab_lt hs⟩ c) * w (ix2 c d) := by
  have hd : dot_S1000x32_S32x64_S1000x64_1_0_0_1_n_n
      = Cert.LibMatmulPlain.plainDims 1000 32 64 dot_S1000x32_S32x64_S1000x64_1_0_0_1_n_n_wf := rfl
  rw [hd]
  refine (Cert.LibMatmulPlain.matmul_zero_apply _ none _ _ p d).trans (Finset.sum_congr rfl fun c _ => ?_)
  rw [truncf_apply, truncf_apply, slabAsMatrix_apply]

/-- The same at the second scale: the 64-term sum. -/
theorem proj64_apply (k : ℕ) (v : FVec Ideal S1000x16x64 .f32) (w : FVec Ideal S64x64 .f32)
    (hs : S1000x16x64.Slices ![0, k, 0] S1000x1x64) (p : Fin 1000) (d : Fin 64) :
    matmul dot_S1000x64_S64x64_S1000x64_1_0_0_1_n_n none
      (truncf .bf16 (shapeCast S1000x64 (extractStridedSlice S1000x1x64 ![0, k, 0] v hs) shapeCasts_S1000x1x64_S1000x64) bitsLt_bf16_f32)
      (truncf .bf16 w bitsLt_bf16_f32) (constant S1000x64 .f32 0x00000000#32) (ix2 p d)
    = ∑ c : Fin 64, v (ix3 p ⟨k, slab_lt hs⟩ c) * w (ix2 c d) := by
  have hd : dot_S1000x64_S64x64_S1000x64_1_0_0_1_n_n
      = Cert.LibMatmulPlain.plainDims 1000 64 64 dot_S1000x64_S64x64_S1000x64_1_0_0_1_n_n_wf := rfl
  rw [hd]
  refine (Cert.LibMatmulPlain.matmul_zero_apply _ none _ _ p d).trans (Finset.sum_congr rfl fun c _ => ?_)
  rw [truncf_apply, truncf_apply, slabAsMatrix_apply]

/-- The normalisation and rectifier as the body spells it, at (p, q). -/
theorem norm_apply (H : FVec Ideal S1000x64 .f32) (P : Vec Ideal S4x64 .f32) (e z : Ideal .f32) (p : Fin 1000) (q : Fin 64) :
    maximumf (addf (mulf (mulf (subf H
      (broadcastTo S1000x64 (shapeCast S1x64 (shapeCast S64 (extractStridedSlice S1x64 ![2, 0] P slices_S4x64_o2_0_S1x64) shapeCasts_S1x64_S64) shapeCasts_S64_S1x64) broadcasts_S1x64_S1000x64))
      (broadcastTo S1000x64 (shapeCast S1x64 (rsqrt (addf (shapeCast S64 (extractStridedSlice S1x64 ![3, 0] P slices_S4x64_o3_0_S1x64) shapeCasts_S1x64_S64) (broadcast S64 e))) shapeCasts_S64_S1x64) broadcasts_S1x64_S1000x64))
      (broadcastTo S1000x64 (shapeCast S1x64 (shapeCast S64 (extractStridedSlice S1x64 ![0, 0] P slices_S4x64_o0_0_S1x64) shapeCasts_S1x64_S64) shapeCasts_S64_S1x64) broadcasts_S1x64_S1000x64))
      (broadcastTo S1000x64 (shapeCast S1x64 (shapeCast S64 (extractStridedSlice S1x64 ![1, 0] P slices_S4x64_o1_0_S1x64) shapeCasts_S1x64_S64) shapeCasts_S64_S1x64) broadcasts_S1x64_S1000x64))
      (broadcast S1000x64 z) (ix2 p q)
    = normRect P e z q (H (ix2 p q)) :=
  normRect_apply H P e z _ _ _ _ _ _ _ p q

/-- One neighbour step: the maximum of what the earlier neighbours left with this neighbour's normalised, rectified value. -/
theorem step_apply (A H : FVec Ideal S1000x64 .f32) (P : Vec Ideal S4x64 .f32) (e z : Ideal .f32) (p : Fin 1000) (q : Fin 64) :
    maximumf A (maximumf (addf (mulf (mulf (subf H
      (broadcastTo S1000x64 (shapeCast S1x64 (shapeCast S64 (extractStridedSlice S1x64 ![2, 0] P slices_S4x64_o2_0_S1x64) shapeCasts_S1x64_S64) shapeCasts_S64_S1x64) broadcasts_S1x64_S1000x64))
      (broadcastTo S1000x64 (shapeCast S1x64 (rsqrt (addf (shapeCast S64 (extractStridedSlice S1x64 ![3, 0] P slices_S4x64_o3_0_S1x64) shapeCasts_S1x64_S64) (broadcast S64 e))) shapeCasts_S64_S1x64) broadcasts_S1x64_S1000x64))
      (broadcastTo S1000x64 (shapeCast S1x64 (shapeCast S64 (extractStridedSlice S1x64 ![0, 0] P slices_S4x64_o0_0_S1x64) shapeCasts_S1x64_S64) shapeCasts_S64_S1x64) broadcasts_S1x64_S1000x64))
      (broadcastTo S1000x64 (shapeCast S1x64 (shapeCast S64 (extractStridedSlice S1x64 ![1, 0] P slices_S4x64_o1_0_S1x64) shapeCasts_S1x64_S64) shapeCasts_S64_S1x64) broadcasts_S1x64_S1000x64))
      (broadcast S1000x64 z)) (ix2 p q)
    = max (A (ix2 p q)) (normRect P e z q (H (ix2 p q))) := by
  rw [maximumf_apply]
  exact congrArg _ (norm_apply H P e z p q)

/-- Three 64-column blocks joined side by side, at (p, j): the side-by-side row of their rows p. -/
theorem join_apply (a b c : (S1000x64).Idx → EReal) (p : Fin 1000) (j : Fin 192) :
    concatenate S1000x192 1 [⟨S1000x64, a⟩, ⟨S1000x64, b⟩, ⟨S1000x64, c⟩] concatenates_S1000x64_S1000x64_S1000x64_S1000x192_d1 (ix2 p j)
      = sideBySide (fun d => a (ix2 p d)) (fun d => b (ix2 p d)) (fun d => c (ix2 p d)) j :=
  sideBySide_apply a b c _ p j

/-- The last product: the joined block times the last weight, at (p, q): the 192-term sum over the side-by-side row. -/
theorem last_apply (a b c : FVec Ideal S1000x64 .f32) (w : FVec Ideal S192x64 .f32) (p : Fin 1000) (q : Fin 64) :
    matmul dot_S1000x192_S192x64_S1000x64_1_0_0_1_n_n none
      (truncf .bf16 (concatenate S1000x192 1 [⟨S1000x64, a⟩, ⟨S1000x64, b⟩, ⟨S1000x64, c⟩] concatenates_S1000x64_S1000x64_S1000x64_S1000x192_d1) bitsLt_bf16_f32)
      (truncf .bf16 w bitsLt_bf16_f32) (constant S1000x64 .f32 0x00000000#32) (ix2 p q)
    = ∑ j : Fin 192, sideBySide (fun d => a (ix2 p d)) (fun d => b (ix2 p d)) (fun d => c (ix2 p d)) j * w (ix2 j q) := by
  have hd : dot_S1000x192_S192x64_S1000x64_1_0_0_1_n_n
      = Cert.LibMatmulPlain.plainDims 1000 192 64 dot_S1000x192_S192x64_S1000x64_1_0_0_1_n_n_wf := rfl
  rw [hd]
  refine (Cert.LibMatmulPlain.matmul_zero_apply _ none _ _ p q).trans (Finset.sum_congr rfl fun j _ => ?_)
  rw [truncf_apply, truncf_apply, join_apply]

/-- WHAT THE BODY STORES, at row p and column q of the point's block: the specification's output entry computed from
    row p of the block of own features, the neighbour rows (p, k, ·) of the two gathered blocks, and the parameters. The
    first equation reads the stored value entry by entry: the pooled features come out as running maxima from the
    rectifier's floor; the second replaces each running maximum by the largest value, the floor being below every
    rectified value. -/
theorem out_apply (x0 : Vec Ideal S1000x64 .f32) (x1 : Vec Ideal S1000x16x32 .f32) (x2 : Vec Ideal S1000x16x64 .f32)
    (x3 : Vec Ideal S32x64 .f32) (x4 : Vec Ideal S4x64 .f32) (x5 : Vec Ideal S64x64 .f32) (x6 : Vec Ideal S4x64 .f32)
    (x7 : Vec Ideal S192x64 .f32) (x8 : Vec Ideal S4x64 .f32) (p : Fin 1000) (q : Fin 64) :
    out0_9 (F := Ideal) x0 x1 x2 x3 x4 x5 x6 x7 x8 (ix2 p q)
      = rowOut (fun d => x0 (ix2 p d)) (fun k c => x1 (ix3 p k c)) (fun k c => x2 (ix3 p k c)) x3 x4 x5 x6 x7 x8 q := by
  have running : out0_9 (F := Ideal) x0 x1 x2 x3 x4 x5 x6 x7 x8 (ix2 p q)
      = normRect x8 eps floor q (∑ j : Fin 192, sideBySide (fun d => x0 (ix2 p d))
          (fun d => runningMax floor (neighbour (fun k c => x1 (ix3 p k c)) x3 x4 d))
          (fun d => runningMax floor (neighbour (fun k c => x2 (ix3 p k c)) x5 x6 d)) j * x7 (ix2 j q)) := by
    unfold out0_9
    rw [View.canon_unit_zero hz2]
    simp only [View.ld_unit_zero (S := S1000x64) hz2, View.ld_unit_zero (S := S1000x16x32) hz3,
      View.ld_unit_zero (S := S1000x16x64) hz3, View.ld_unit_zero (S := S32x64) hz2, View.ld_unit_zero (S := S4x64) hz2,
      View.ld_unit_zero (S := S64x64) hz2, View.ld_unit_zero (S := S192x64) hz2]
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75]
    simp only [shapeCast_self, norm_apply, step_apply, last_apply, proj32_apply, proj64_apply, broadcast_apply]
    rfl
  rw [running]
  unfold rowOut pooled
  simp only [runningMax_eq _ _ (floor_le_neighbour _ _ _ _ 0)]

end Cert.KernelIdeal.Block

end
-- ==== Proof.KernelArray.lean ====
/-
  From the blocks to the whole array.

  Grid point t works on rows 1000·t … 1000·t + 999: the blocks of own features and of the two gathered arrays are those
  rows, the parameters are whole, and the block written back is rows 1000·t … of the result. So what point t writes back
  is the block of the specification's array (`wroteBack_eq`), the 50 blocks cover all 50000 rows (`rows_covered`), and
  after the run the result array is the specification of the arrays the region found (`result_array`, `run`).
-/
import proofs.«171359_j52956946760189_2_alg».proof.Proof.Gen.KernelIdeal.Value
import proofs.«171359_j52956946760189_2_alg».proof.Proof.KernelBlock

noncomputable section

namespace Cert.KernelIdeal.Array

open Cert.KernelIdeal Cert.KernelIdeal.Gen Idealize.ShloMosaic Idealize.ShloMosaic.TcCoe Idealize.SL.Sem
open Idealize.ShloMosaic.ValueIdx Cert.LibRowsAndSlabs Cert.Spec
open Idealize.ShloMosaic.Pipeline (Dat)

variable (m : (ℓ : Loc nD τ sig) → Buf (Elt Ideal) ℓ) (ρ : Dev nD → PrngReg)

/-- The specification of the arrays as the region finds them: the two gathered arrays, the own features, the parameters. -/
abbrev Gm (c : Dev nD) : S50000x64.Idx → EReal :=
  G (V m c main_v6) (V m c main_v13) (V m c main_arg2) (V m c main_arg3) (V m c main_arg4) (V m c main_arg5)
    (V m c main_arg6) (V m c main_arg7) (V m c main_arg8)

/-- The printed index maps over the 50 points: the three row-blocked inputs and the output are at block row t, every
    other block index is 0. -/
theorem idx_facts : ∀ t : Fin cfg0.N,
    win0_9.index t (0 : Fin 2) = t.val ∧ win0_9.index t (1 : Fin 2) = 0
    ∧ win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- WHAT POINT t WRITES BACK is block t of the specification's array. -/
theorem wroteBack_eq (c : Dev nD) (t : Fin cfg0.N) :
    (dats m 0 c).flushed 9 t = ((cfg0.win 9).blk t).view.read (Elt Ideal) (Gm m c) := by
  rw [Cert.KernelIdeal.Value.flushed9]
  obtain ⟨i90, i91, i00, i01, i10, i11, i12, i20, i21, i22, i30, i31, i40, i41, i50, i51, i60, i61, i70, i71, i80, i81⟩ := idx_facts t
  have ht : t.val < 50 := t.isLt
  funext j
  obtain ⟨p, q, rfl⟩ : ∃ (p : Fin 1000) (q : Fin 64), j = ix2 p q := ⟨j 0, j 1, eq_ix2 j⟩
  have hp := p.isLt
  have hr : t.val * 1000 + p.val < 50000 := by omega
  show out0_9 (iblk m c 0 t) (iblk m c 1 t) (iblk m c 2 t) (iblk m c 3 t) (iblk m c 4 t) (iblk m c 5 t) (iblk m c 6 t)
      (iblk m c 7 t) (iblk m c 8 t) (ix2 p q) = Gm m c (((cfg0.win 9).blk t).view.emb (ix2 p q))
  refine (Cert.KernelIdeal.Block.out_apply _ _ _ _ _ _ _ _ _ p q).trans ?_
  have e9 : ((cfg0.win 9).blk t).view.emb (ix2 p q) = ix2 (⟨t.val * 1000 + p.val, hr⟩ : Fin 50000) q :=
    funext fun a => Fin.ext (by
      match a with
      | ⟨0, _⟩ => show win0_9.index t (0 : Fin 2) * 1000 + 1 * p.val = t.val * 1000 + p.val; omega
      | ⟨1, _⟩ => show win0_9.index t (1 : Fin 2) * 64 + 1 * q.val = q.val; omega)
  have e0 : ∀ d : Fin 64, ((cfg0.win 0).blk t).view.emb (ix2 p d) = ix2 (⟨t.val * 1000 + p.val, hr⟩ : Fin 50000) d :=
    fun d => funext fun a => Fin.ext (by
      match a with
      | ⟨0, _⟩ => show win0_0.index t (0 : Fin 2) * 1000 + 1 * p.val = t.val * 1000 + p.val; omega
      | ⟨1, _⟩ => show win0_0.index t (1 : Fin 2) * 64 + 1 * d.val = d.val; omega)
  have e1 : ∀ (k : Fin 16) (c' : Fin 32), ((cfg0.win 1).blk t).view.emb (ix3 p k c') = ix3 (⟨t.val * 1000 + p.val, hr⟩ : Fin 50000) k c' :=
    fun k c' => funext fun a => Fin.ext (by
      match a with
      | ⟨0, _⟩ => show win0_1.index t (0 : Fin 3) * 1000 + 1 * p.val = t.val * 1000 + p.val; omega
      | ⟨1, _⟩ => show win0_1.index t (1 : Fin 3) * 16 + 1 * k.val = k.val; omega
      | ⟨2, _⟩ => show win0_1.index t (2 : Fin 3) * 32 + 1 * c'.val = c'.val; omega)
  have e2 : ∀ (k : Fin 16) (c' : Fin 64), ((cfg0.win 2).blk t).view.emb (ix3 p k c') = ix3 (⟨t.val * 1000 + p.val, hr⟩ : Fin 50000) k c' :=
    fun k c' => funext fun a => Fin.ext (by
      match a with
      | ⟨0, _⟩ => show win0_2.index t (0 : Fin 3) * 1000 + 1 * p.val = t.val * 1000 + p.val; omega
      | ⟨1, _⟩ => show win0_2.index t (1 : Fin 3) * 16 + 1 * k.val = k.val; omega
      | ⟨2, _⟩ => show win0_2.index t (2 : Fin 3) * 64 + 1 * c'.val = c'.val; omega)
  have e3 : ∀ y : S32x64.Idx, ((cfg0.win 3).blk t).view.emb y = y := fun y => funext fun a => Fin.ext (by
    match a with
    | ⟨0, _⟩ => show win0_3.index t (0 : Fin 2) * 32 + 1 * (y 0).val = (y 0).val; omega
    | ⟨1, _⟩ => show win0_3.index t (1 : Fin 2) * 64 + 1 * (y 1).val = (y 1).val; omega)
  have e4 : ∀ y : S4x64.Idx, ((cfg0.win 4).blk t).view.emb y = y := fun y => funext fun a => Fin.ext (by
    match a with
    | ⟨0, _⟩ => show win0_4.index t (0 : Fin 2) * 4 + 1 * (y 0).val = (y 0).val; omega
    | ⟨1, _⟩ => show win0_4.index t (1 : Fin 2) * 64 + 1 * (y 1).val = (y 1).val; omega)
  have e5 : ∀ y : S64x64.Idx, ((cfg0.win 5).blk t).view.emb y = y := fun y => funext fun a => Fin.ext (by
    match a with
    | ⟨0, _⟩ => show win0_5.index t (0 : Fin 2) * 64 + 1 * (y 0).val = (y 0).val; omega
    | ⟨1, _⟩ => show win0_5.index t (1 : Fin 2) * 64 + 1 * (y 1).val = (y 1).val; omega)
  have e6 : ∀ y : S4x64.Idx, ((cfg0.win 6).blk t).view.emb y = y := fun y => funext fun a => Fin.ext (by
    match a with
    | ⟨0, _⟩ => show win0_6.index t (0 : Fin 2) * 4 + 1 * (y 0).val = (y 0).val; omega
    | ⟨1, _⟩ => show win0_6.index t (1 : Fin 2) * 64 + 1 * (y 1).val = (y 1).val; omega)
  have e7 : ∀ y : S192x64.Idx, ((cfg0.win 7).blk t).view.emb y = y := fun y => funext fun a => Fin.ext (by
    match a with
    | ⟨0, _⟩ => show win0_7.index t (0 : Fin 2) * 192 + 1 * (y 0).val = (y 0).val; omega
    | ⟨1, _⟩ => show win0_7.index t (1 : Fin 2) * 64 + 1 * (y 1).val = (y 1).val; omega)
  have e8 : ∀ y : S4x64.Idx, ((cfg0.win 8).blk t).view.emb y = y := fun y => funext fun a => Fin.ext (by
    match a with
    | ⟨0, _⟩ => show win0_8.index t (0 : Fin 2) * 4 + 1 * (y 0).val = (y 0).val; omega
    | ⟨1, _⟩ => show win0_8.index t (1 : Fin 2) * 64 + 1 * (y 1).val = (y 1).val; omega)
  rw [e9]
  show rowOut (fun d => V m c main_arg2 (((cfg0.win 0).blk t).view.emb (ix2 p d)))
      (fun k c' => V m c main_v6 (((cfg0.win 1).blk t).view.emb (ix3 p k c')))
      (fun k c' => V m c main_v13 (((cfg0.win 2).blk t).view.emb (ix3 p k c')))
      (fun y => V m c main_arg3 (((cfg0.win 3).blk t).view.emb y)) (fun y => V m c main_arg4 (((cfg0.win 4).blk t).view.emb y))
      (fun y => V m c main_arg5 (((cfg0.win 5).blk t).view.emb y)) (fun y => V m c main_arg6 (((cfg0.win 6).blk t).view.emb y))
      (fun y => V m c main_arg7 (((cfg0.win 7).blk t).view.emb y)) (fun y => V m c main_arg8 (((cfg0.win 8).blk t).view.emb y)) q
    = rowOut (fun d => V m c main_arg2 (ix2 (⟨t.val * 1000 + p.val, hr⟩ : Fin 50000) d))
      (fun k c' => V m c main_v6 (ix3 (⟨t.val * 1000 + p.val, hr⟩ : Fin 50000) k c'))
      (fun k c' => V m c main_v13 (ix3 (⟨t.val * 1000 + p.val, hr⟩ : Fin 50000) k c'))
      (V m c main_arg3) (V m c main_arg4) (V m c main_arg5) (V m c main_arg6) (V m c main_arg7) (V m c main_arg8) q
  simp only [e0, e1, e2, e3, e4, e5, e6, e7, e8]

/-- An index of the result array is in point t's block iff each coordinate is in the block's range on its axis. -/
theorem mem_blk (t : Fin cfg0.N) (i : S50000x64.Idx) :
    i ∈ ((cfg0.win 9).blk t).view.set ↔ ∀ a : Fin 2, win0_9.index t a * S1000x64.size a ≤ (i a).val ∧ (i a).val < win0_9.index t a * S1000x64.size a + S1000x64.size a := by
  show i ∈ ((View.whole main_v14).slice (win0_9.rect t)).set ↔ _
  rw [View.set_slice_whole, Rect.mem_set_unit]
  exact Iff.rfl

/-- Row r of the result is in the block of point r / 1000: the 50 blocks cover the 50000 rows. -/
theorem rows_covered (i : S50000x64.Idx) :
    ∃ t : Fin cfg0.N, (cfg0.win 9).flush t = true ∧ i ∈ ((cfg0.win 9).blk t).view.set := by
  have hi0 : (i 0).val < 50000 := (i 0).isLt
  have hi1 : (i 1).val < 64 := (i 1).isLt
  have ht : (i 0).val / 1000 < 50 := by omega
  refine ⟨⟨(i 0).val / 1000, ht⟩, flush0_9 _, ?_⟩
  obtain ⟨i90, i91, -⟩ := idx_facts ⟨(i 0).val / 1000, ht⟩
  rw [mem_blk]
  intro a
  match a with
  | ⟨0, _⟩ =>
    show win0_9.index ⟨(i 0).val / 1000, ht⟩ (0 : Fin 2) * 1000 ≤ (i 0).val ∧ (i 0).val < win0_9.index ⟨(i 0).val / 1000, ht⟩ (0 : Fin 2) * 1000 + 1000
    rw [i90]
    show (i 0).val / 1000 * 1000 ≤ (i 0).val ∧ (i 0).val < (i 0).val / 1000 * 1000 + 1000
    omega
  | ⟨1, _⟩ =>
    show win0_9.index ⟨(i 0).val / 1000, ht⟩ (1 : Fin 2) * 64 ≤ (i 1).val ∧ (i 1).val < win0_9.index ⟨(i 0).val / 1000, ht⟩ (1 : Fin 2) * 64 + 64
    rw [i91]
    omega

/-- THE RESULT ARRAY after the run is the specification of the arrays the region found. -/
theorem result_array (c : Dev nD) : (dats m 0 c).arrAt 9 cfg0.N = Gm m c :=
  (dats m 0 c).arrAt_eq_of_cover 9 (Gm m c) (fun t _ => wroteBack_eq m c t) rows_covered

/-- The frame run re-posted: the result array at the specification, the arguments unchanged. -/
theorem run : θ_run defs (onTc (τ := τ) (main (F := Ideal))) ⟨m, fun _ => 0, ρ⟩ fun r => ∀ c : Dev nD,
      r.2.mem ((c : Thread nD τ).loc main_v14) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (result_array m c), (h c).2⟩)
    (Cert.KernelIdeal.Value.run_blocks m ρ)

end Cert.KernelIdeal.Array

end
-- ==== Proof.RefIsSpec.lean ====
/-
  The reference program, entry by entry, is the specification applied to its two gathered arrays.

  Read one operation at a time: a parameter row that is cut out, flattened, laid along the last axis and spread over the
  array is that row's entry in the column; the product with a weight is the sum over the contracted axis; the rectifier
  is the maximum with the floor; the reduction along the neighbour axis from minus infinity is the largest of the 16
  neighbours' values; the three-way join is the side-by-side row. The two gathers are kept whole: both programs gather
  with the same indices.
-/
import proofs.«171359_j52956946760189_2_alg».proof.Proof.RefReadP
import proofs.«171359_j52956946760189_2_alg».proof.Proof.Spec
import Idealize.ShloMosaic.PureOps.Reduce

noncomputable section

namespace Cert.ReferenceIdeal.RefValue

open Cert.ReferenceIdeal Cert.ReferenceIdeal.Gen Cert.ReferenceIdeal.ReadP Idealize.ShloMosaic Idealize.ShloMosaic.ValueIdx Cert.LibRowsAndSlabs Cert.Spec

/-- Normalisation 1: the centre spread over the array is the parameter matrix's row 2. -/
theorem centre1 (x4 : (⟨S4x64, .f32⟩ : BufTy).Contents (Elt Ideal)) (n : Fin 50000) (k : Fin 16) (d : Fin 64) : val_main_v17 (F := Ideal) x4 (ix3 n k d) = x4 (ix2 2 d) := by
  rw [val_main_v17_apply, val_main_v16_apply, val_main_v13_apply, val_main_v12_apply]
  exact congrArg x4 (funext fun a => Fin.ext (by match a with | ⟨0, _⟩ => rfl | ⟨1, _⟩ => exact Nat.mod_eq_of_lt d.isLt))

/-- Normalisation 1: the reciprocal root spread over the array is that of row 3 plus the shift. -/
theorem invroot1 (x4 : (⟨S4x64, .f32⟩ : BufTy).Contents (Elt Ideal)) (n : Fin 50000) (k : Fin 16) (d : Fin 64) :
    val_main_v23 (F := Ideal) x4 (ix3 n k d) = Ideal.rsqrt (x4 (ix2 3 d) + eps) := by
  rw [val_main_v23_apply, val_main_v22_apply, val_main_v21_apply, val_main_v20_apply, val_main_v15_apply, val_main_v14_apply, val_main_v19_apply, val_main_cst_apply]
  exact congrArg (fun t => Ideal.rsqrt (x4 t + eps)) (funext fun a => Fin.ext (by match a with | ⟨0, _⟩ => rfl | ⟨1, _⟩ => exact Nat.mod_eq_of_lt d.isLt))

/-- Normalisation 1: the scale spread over the array is row 0. -/
theorem scale1 (x4 : (⟨S4x64, .f32⟩ : BufTy).Contents (Elt Ideal)) (n : Fin 50000) (k : Fin 16) (d : Fin 64) : val_main_v26 (F := Ideal) x4 (ix3 n k d) = x4 (ix2 0 d) := by
  rw [val_main_v26_apply, val_main_v25_apply, val_main_v9_apply, val_main_v8_apply]
  exact congrArg x4 (funext fun a => Fin.ext (by match a with | ⟨0, _⟩ => rfl | ⟨1, _⟩ => exact Nat.mod_eq_of_lt d.isLt))

/-- Normalisation 1: the shift spread over the array is row 1. -/
theorem shift1 (x4 : (⟨S4x64, .f32⟩ : BufTy).Contents (Elt Ideal)) (n : Fin 50000) (k : Fin 16) (d : Fin 64) : val_main_v29 (F := Ideal) x4 (ix3 n k d) = x4 (ix2 1 d) := by
  rw [val_main_v29_apply, val_main_v28_apply, val_main_v11_apply, val_main_v10_apply]
  exact congrArg x4 (funext fun a => Fin.ext (by match a with | ⟨0, _⟩ => rfl | ⟨1, _⟩ => exact Nat.mod_eq_of_lt d.isLt))

/-- Rectifier 1: the floor spread over the array. -/
theorem floor1 (n : Fin 50000) (k : Fin 16) (d : Fin 64) : val_main_call0_v0 (F := Ideal) (ix3 n k d) = floor := by
  rw [val_main_call0_v0_apply, val_main_call0_cst_apply]
  rfl

/-- Normalisation 2: the centre spread over the array is the parameter matrix's row 2. -/
theorem centre2 (x6 : (⟨S4x64, .f32⟩ : BufTy).Contents (Elt Ideal)) (n : Fin 50000) (k : Fin 16) (d : Fin 64) : val_main_v50 (F := Ideal) x6 (ix3 n k d) = x6 (ix2 2 d) := by
  rw [val_main_v50_apply, val_main_v49_apply, val_main_v46_apply, val_main_v45_apply]
  exact congrArg x6 (funext fun a => Fin.ext (by match a with | ⟨0, _⟩ => rfl | ⟨1, _⟩ => exact Nat.mod_eq_of_lt d.isLt))

/-- Normalisation 2: the reciprocal root spread over the array is that of row 3 plus the shift. -/
theorem invroot2 (x6 : (⟨S4x64, .f32⟩ : BufTy).Contents (Elt Ideal)) (n : Fin 50000) (k : Fin 16) (d : Fin 64) :
    val_main_v56 (F := Ideal) x6 (ix3 n k d) = Ideal.rsqrt (x6 (ix2 3 d) + eps) := by
  rw [val_main_v56_apply, val_main_v55_apply, val_main_v54_apply, val_main_v53_apply, val_main_v48_apply, val_main_v47_apply, val_main_v52_apply, val_main_cst_4_apply]
  exact congrArg (fun t => Ideal.rsqrt (x6 t + eps)) (funext fun a => Fin.ext (by match a with | ⟨0, _⟩ => rfl | ⟨1, _⟩ => exact Nat.mod_eq_of_lt d.isLt))

/-- Normalisation 2: the scale spread over the array is row 0. -/
theorem scale2 (x6 : (⟨S4x64, .f32⟩ : BufTy).Contents (Elt Ideal)) (n : Fin 50000) (k : Fin 16) (d : Fin 64) : val_main_v59 (F := Ideal) x6 (ix3 n k d) = x6 (ix2 0 d) := by
  rw [val_main_v59_apply, val_main_v58_apply, val_main_v42_apply, val_main_v41_apply]
  exact congrArg x6 (funext fun a => Fin.ext (by match a with | ⟨0, _⟩ => rfl | ⟨1, _⟩ => exact Nat.mod_eq_of_lt d.isLt))

/-- Normalisation 2: the shift spread over the array is row 1. -/
theorem shift2 (x6 : (⟨S4x64, .f32⟩ : BufTy).Contents (Elt Ideal)) (n : Fin 50000) (k : Fin 16) (d : Fin 64) : val_main_v62 (F := Ideal) x6 (ix3 n k d) = x6 (ix2 1 d) := by
  rw [val_main_v62_apply, val_main_v61_apply, val_main_v44_apply, val_main_v43_apply]
  exact congrArg x6 (funext fun a => Fin.ext (by match a with | ⟨0, _⟩ => rfl | ⟨1, _⟩ => exact Nat.mod_eq_of_lt d.isLt))

/-- Rectifier 2: the floor spread over the array. -/
theorem floor2 (n : Fin 50000) (k : Fin 16) (d : Fin 64) : val_main_call1_v0 (F := Ideal) (ix3 n k d) = floor := by
  rw [val_main_call1_v0_apply, val_main_call1_cst_apply]
  rfl

/-- Normalisation 3: the centre spread over the array is the parameter matrix's row 2. -/
theorem centre3 (x8 : (⟨S4x64, .f32⟩ : BufTy).Contents (Elt Ideal)) (n : Fin 50000) (d : Fin 64) : val_main_v77 (F := Ideal) x8 (ix2 n d) = x8 (ix2 2 d) := by
  rw [val_main_v77_apply, val_main_v76_apply, val_main_v73_apply, val_main_v72_apply]
  exact congrArg x8 (funext fun a => Fin.ext (by match a with | ⟨0, _⟩ => rfl | ⟨1, _⟩ => exact Nat.mod_eq_of_lt d.isLt))

/-- Normalisation 3: the reciprocal root spread over the array is that of row 3 plus the shift. -/
theorem invroot3 (x8 : (⟨S4x64, .f32⟩ : BufTy).Contents (Elt Ideal)) (n : Fin 50000) (d : Fin 64) :
    val_main_v83 (F := Ideal) x8 (ix2 n d) = Ideal.rsqrt (x8 (ix2 3 d) + eps) := by
  rw [val_main_v83_apply, val_main_v82_apply, val_main_v81_apply, val_main_v80_apply, val_main_v75_apply, val_main_v74_apply, val_main_v79_apply, val_main_cst_6_apply]
  exact congrArg (fun t => Ideal.rsqrt (x8 t + eps)) (funext fun a => Fin.ext (by match a with | ⟨0, _⟩ => rfl | ⟨1, _⟩ => exact Nat.mod_eq_of_lt d.isLt))

/-- Normalisation 3: the scale spread over the array is row 0. -/
theorem scale3 (x8 : (⟨S4x64, .f32⟩ : BufTy).Contents (Elt Ideal)) (n : Fin 50000) (d : Fin 64) : val_main_v86 (F := Ideal) x8 (ix2 n d) = x8 (ix2 0 d) := by
  rw [val_main_v86_apply, val_main_v85_apply, val_main_v69_apply, val_main_v68_apply]
  exact congrArg x8 (funext fun a => Fin.ext (by match a with | ⟨0, _⟩ => rfl | ⟨1, _⟩ => exact Nat.mod_eq_of_lt d.isLt))

/-- Normalisation 3: the shift spread over the array is row 1. -/
theorem shift3 (x8 : (⟨S4x64, .f32⟩ : BufTy).Contents (Elt Ideal)) (n : Fin 50000) (d : Fin 64) : val_main_v89 (F := Ideal) x8 (ix2 n d) = x8 (ix2 1 d) := by
  rw [val_main_v89_apply, val_main_v88_apply, val_main_v71_apply, val_main_v70_apply]
  exact congrArg x8 (funext fun a => Fin.ext (by match a with | ⟨0, _⟩ => rfl | ⟨1, _⟩ => exact Nat.mod_eq_of_lt d.isLt))

/-- Rectifier 3: the floor spread over the array. -/
theorem floor3 (n : Fin 50000) (d : Fin 64) : val_main_call2_v0 (F := Ideal) (ix2 n d) = floor := by
  rw [val_main_call2_v0_apply, val_main_call2_cst_apply]
  rfl

/-- Scale 1: the product of the gathered rows with the weight, at (n, k, d): the 32-term sum. -/
theorem proj1 (x0 : (⟨S200000x32, .f32⟩ : BufTy).Contents (Elt Ideal)) (x3 : (⟨S32x64, .f32⟩ : BufTy).Contents (Elt Ideal)) (x9 : (⟨S50000x16, .i32⟩ : BufTy).Contents (Elt Ideal)) (n : Fin 50000) (k : Fin 16) (d : Fin 64) :
    val_main_v7 (F := Ideal) x0 x3 x9 (ix3 n k d) = ∑ c : Fin 32, val_main_v6 (F := Ideal) x0 x9 (ix3 n k c) * x3 (ix2 c d) := by
  rw [val_main_v7_apply]
  refine Finset.sum_congr rfl fun c _ => ?_
  have el : lidx_main_v7 (ix3 n k d) c = ix3 n k c :=
    funext fun a => Fin.ext (by match a with | ⟨0, _⟩ => rfl | ⟨1, _⟩ => rfl | ⟨2, _⟩ => rfl)
  have er : ridx_main_v7 (ix3 n k d) c = ix2 c d :=
    funext fun a => Fin.ext (by match a with | ⟨0, _⟩ => rfl | ⟨1, _⟩ => rfl)
  rw [el, er]

/-- Scale 2: the 64-term sum. -/
theorem proj2 (x1 : (⟨S100000x64, .f32⟩ : BufTy).Contents (Elt Ideal)) (x5 : (⟨S64x64, .f32⟩ : BufTy).Contents (Elt Ideal)) (x10 : (⟨S50000x16, .i32⟩ : BufTy).Contents (Elt Ideal)) (n : Fin 50000) (k : Fin 16) (d : Fin 64) :
    val_main_v40 (F := Ideal) x1 x5 x10 (ix3 n k d) = ∑ c : Fin 64, val_main_v39 (F := Ideal) x1 x10 (ix3 n k c) * x5 (ix2 c d) := by
  rw [val_main_v40_apply]
  refine Finset.sum_congr rfl fun c _ => ?_
  have el : lidx_main_v40 (ix3 n k d) c = ix3 n k c :=
    funext fun a => Fin.ext (by match a with | ⟨0, _⟩ => rfl | ⟨1, _⟩ => rfl | ⟨2, _⟩ => rfl)
  have er : ridx_main_v40 (ix3 n k d) c = ix2 c d :=
    funext fun a => Fin.ext (by match a with | ⟨0, _⟩ => rfl | ⟨1, _⟩ => rfl)
  rw [el, er]

/-- Scale 1: neighbour k's value in column d. -/
theorem nbr1 (x0 : (⟨S200000x32, .f32⟩ : BufTy).Contents (Elt Ideal)) (x3 : (⟨S32x64, .f32⟩ : BufTy).Contents (Elt Ideal)) (x4 : (⟨S4x64, .f32⟩ : BufTy).Contents (Elt Ideal)) (x9 : (⟨S50000x16, .i32⟩ : BufTy).Contents (Elt Ideal)) (n : Fin 50000) (k : Fin 16) (d : Fin 64) :
    val_main_v31 (F := Ideal) x0 x3 x4 x9 (ix3 n k d)
      = neighbour (fun k c => val_main_v6 (F := Ideal) x0 x9 (ix3 n k c)) x3 x4 d k := by
  rw [val_main_v31_apply, val_main_v30_apply, val_main_v27_apply, val_main_v24_apply, val_main_v18_apply, proj1, centre1,
    invroot1, scale1, shift1, floor1]
  rfl

/-- Scale 2: neighbour k's value in column d. -/
theorem nbr2 (x1 : (⟨S100000x64, .f32⟩ : BufTy).Contents (Elt Ideal)) (x5 : (⟨S64x64, .f32⟩ : BufTy).Contents (Elt Ideal)) (x6 : (⟨S4x64, .f32⟩ : BufTy).Contents (Elt Ideal)) (x10 : (⟨S50000x16, .i32⟩ : BufTy).Contents (Elt Ideal)) (n : Fin 50000) (k : Fin 16) (d : Fin 64) :
    val_main_v64 (F := Ideal) x1 x5 x6 x10 (ix3 n k d)
      = neighbour (fun k c => val_main_v39 (F := Ideal) x1 x10 (ix3 n k c)) x5 x6 d k := by
  rw [val_main_v64_apply, val_main_v63_apply, val_main_v60_apply, val_main_v57_apply, val_main_v51_apply, proj2, centre2,
    invroot2, scale2, shift2, floor2]
  rfl

/-- The neighbour axis is the middle one of three. -/
theorem hred : S50000x16x64.Reduces [1] S50000x64 := by decide

/-- Entry (n, d) of the reduced array comes from the entries (n, k, d). -/
theorem lift_eq (n : Fin 50000) (d : Fin 64) (k : Fin 16) : hred.lift (ix2 n d) k = ix3 n k d :=
  funext fun a => Fin.ext (by
    match a with
    | ⟨0, _⟩ => rfl
    | ⟨1, _⟩ => rfl
    | ⟨2, _⟩ => rfl)

/-- Scale 1: the reduction along the neighbour axis is the pooled feature. -/
theorem pool1 (x0 : (⟨S200000x32, .f32⟩ : BufTy).Contents (Elt Ideal)) (x3 : (⟨S32x64, .f32⟩ : BufTy).Contents (Elt Ideal)) (x4 : (⟨S4x64, .f32⟩ : BufTy).Contents (Elt Ideal)) (x9 : (⟨S50000x16, .i32⟩ : BufTy).Contents (Elt Ideal)) (n : Fin 50000) (d : Fin 64) :
    val_main_v32 (F := Ideal) x0 x3 x4 x9 (ix2 n d)
      = pooled (fun k c => val_main_v6 (F := Ideal) x0 x9 (ix3 n k c)) x3 x4 d := by
  unfold val_main_v32
  rw [Host.reduce_eq_fold_single FloatOps.maximumf _ _ reducesTo_S50000x16x64_S50000x64_d1 hred h_S_ (ix2 n d)]
  show Finset.fold max (Ideal.ofBits .f32 0xFF800000#32)
    (fun k : Fin 16 => val_main_v31 (F := Ideal) x0 x3 x4 x9 (hred.lift (ix2 n d) k)) Finset.univ = _
  simp only [lift_eq, nbr1]
  exact foldMax_eq _

/-- Scale 2: the reduction along the neighbour axis is the pooled feature. -/
theorem pool2 (x1 : (⟨S100000x64, .f32⟩ : BufTy).Contents (Elt Ideal)) (x5 : (⟨S64x64, .f32⟩ : BufTy).Contents (Elt Ideal)) (x6 : (⟨S4x64, .f32⟩ : BufTy).Contents (Elt Ideal)) (x10 : (⟨S50000x16, .i32⟩ : BufTy).Contents (Elt Ideal)) (n : Fin 50000) (d : Fin 64) :
    val_main_v65 (F := Ideal) x1 x5 x6 x10 (ix2 n d)
      = pooled (fun k c => val_main_v39 (F := Ideal) x1 x10 (ix3 n k c)) x5 x6 d := by
  unfold val_main_v65
  rw [Host.reduce_eq_fold_single FloatOps.maximumf _ _ reducesTo_S50000x16x64_S50000x64_d1 hred h_S_ (ix2 n d)]
  show Finset.fold max (Ideal.ofBits .f32 0xFF800000#32)
    (fun k : Fin 16 => val_main_v64 (F := Ideal) x1 x5 x6 x10 (hred.lift (ix2 n d) k)) Finset.univ = _
  simp only [lift_eq, nbr2]
  exact foldMax_eq _

/-- The last product at (n, q): the 192-term sum over the side-by-side row of own features and the two pooled rows. -/
theorem proj3 (x0 : (⟨S200000x32, .f32⟩ : BufTy).Contents (Elt Ideal)) (x1 : (⟨S100000x64, .f32⟩ : BufTy).Contents (Elt Ideal)) (x2 : (⟨S50000x64, .f32⟩ : BufTy).Contents (Elt Ideal)) (x3 : (⟨S32x64, .f32⟩ : BufTy).Contents (Elt Ideal)) (x4 : (⟨S4x64, .f32⟩ : BufTy).Contents (Elt Ideal)) (x5 : (⟨S64x64, .f32⟩ : BufTy).Contents (Elt Ideal)) (x6 : (⟨S4x64, .f32⟩ : BufTy).Contents (Elt Ideal)) (x7 : (⟨S192x64, .f32⟩ : BufTy).Contents (Elt Ideal)) (x9 : (⟨S50000x16, .i32⟩ : BufTy).Contents (Elt Ideal)) (x10 : (⟨S50000x16, .i32⟩ : BufTy).Contents (Elt Ideal)) (n : Fin 50000) (q : Fin 64) :
    val_main_v67 (F := Ideal) x0 x1 x2 x3 x4 x5 x6 x7 x9 x10 (ix2 n q)
      = ∑ j : Fin 192, sideBySide (fun d => x2 (ix2 n d))
          (pooled (fun k c => val_main_v6 (F := Ideal) x0 x9 (ix3 n k c)) x3 x4)
          (pooled (fun k c => val_main_v39 (F := Ideal) x1 x10 (ix3 n k c)) x5 x6) j * x7 (ix2 j q) := by
  rw [val_main_v67_apply]
  refine Finset.sum_congr rfl fun j _ => ?_
  have el : lidx_main_v67 (ix2 n q) j = ix2 n j :=
    funext fun a => Fin.ext (by match a with | ⟨0, _⟩ => rfl | ⟨1, _⟩ => rfl)
  have er : ridx_main_v67 (ix2 n q) j = ix2 j q :=
    funext fun a => Fin.ext (by match a with | ⟨0, _⟩ => rfl | ⟨1, _⟩ => rfl)
  rw [el, er]
  unfold val_main_v66
  rw [sideBySide_apply]
  simp only [pool1, pool2]

/-- The reference's result at (n, q) is the specification's output entry. -/
theorem result_apply (x0 : (⟨S200000x32, .f32⟩ : BufTy).Contents (Elt Ideal)) (x1 : (⟨S100000x64, .f32⟩ : BufTy).Contents (Elt Ideal)) (x2 : (⟨S50000x64, .f32⟩ : BufTy).Contents (Elt Ideal)) (x3 : (⟨S32x64, .f32⟩ : BufTy).Contents (Elt Ideal)) (x4 : (⟨S4x64, .f32⟩ : BufTy).Contents (Elt Ideal)) (x5 : (⟨S64x64, .f32⟩ : BufTy).Contents (Elt Ideal)) (x6 : (⟨S4x64, .f32⟩ : BufTy).Contents (Elt Ideal)) (x7 : (⟨S192x64, .f32⟩ : BufTy).Contents (Elt Ideal)) (x8 : (⟨S4x64, .f32⟩ : BufTy).Contents (Elt Ideal)) (x9 : (⟨S50000x16, .i32⟩ : BufTy).Contents (Elt Ideal)) (x10 : (⟨S50000x16, .i32⟩ : BufTy).Contents (Elt Ideal)) (n : Fin 50000) (q : Fin 64) :
    val_main_v91 (F := Ideal) x0 x1 x2 x3 x4 x5 x6 x7 x8 x9 x10 (ix2 n q)
      = rowOut (fun d => x2 (ix2 n d)) (fun k c => val_main_v6 (F := Ideal) x0 x9 (ix3 n k c))
          (fun k c => val_main_v39 (F := Ideal) x1 x10 (ix3 n k c)) x3 x4 x5 x6 x7 x8 q := by
  rw [val_main_v91_apply, val_main_v90_apply, val_main_v87_apply, val_main_v84_apply, val_main_v78_apply, proj3, centre3,
    invroot3, scale3, shift3, floor3]
  rfl

/-- THE REFERENCE IS THE SPECIFICATION of its two gathered arrays and the other arguments. -/
theorem result_eq (x0 : (⟨S200000x32, .f32⟩ : BufTy).Contents (Elt Ideal)) (x1 : (⟨S100000x64, .f32⟩ : BufTy).Contents (Elt Ideal)) (x2 : (⟨S50000x64, .f32⟩ : BufTy).Contents (Elt Ideal)) (x3 : (⟨S32x64, .f32⟩ : BufTy).Contents (Elt Ideal)) (x4 : (⟨S4x64, .f32⟩ : BufTy).Contents (Elt Ideal)) (x5 : (⟨S64x64, .f32⟩ : BufTy).Contents (Elt Ideal)) (x6 : (⟨S4x64, .f32⟩ : BufTy).Contents (Elt Ideal)) (x7 : (⟨S192x64, .f32⟩ : BufTy).Contents (Elt Ideal)) (x8 : (⟨S4x64, .f32⟩ : BufTy).Contents (Elt Ideal)) (x9 : (⟨S50000x16, .i32⟩ : BufTy).Contents (Elt Ideal)) (x10 : (⟨S50000x16, .i32⟩ : BufTy).Contents (Elt Ideal)) :
    val_main_v91 (F := Ideal) x0 x1 x2 x3 x4 x5 x6 x7 x8 x9 x10
      = G (val_main_v6 (F := Ideal) x0 x9) (val_main_v39 (F := Ideal) x1 x10) x2 x3 x4 x5 x6 x7 x8 := by
  funext i
  obtain ⟨n, q, rfl⟩ : ∃ (n : Fin 50000) (q : Fin 64), i = ix2 n q := ⟨i 0, i 1, eq_ix2 i⟩
  rw [result_apply]
  rfl

end Cert.ReferenceIdeal.RefValue

end
-- ==== Proof.lean ====
/-
  The certificate of the fused neighbourhood-pooling kernel against its jnp reference, on the extended reals.

  Both programs gather 16 neighbour rows per target row at two scales with the same index arithmetic. For each scale every
  neighbour row is multiplied by a weight, normalised column by column with four parameter rows (centre, spread, scale,
  shift) and rectified, and the 16 results are pooled by their maximum; the row's own features and the two pooled rows are
  laid side by side, multiplied by a last weight, normalised and rectified. The kernel works on 1000 target rows per grid
  point, takes the maxima one neighbour at a time from the rectifier's floor and multiplies in a narrower float format;
  the reference multiplies whole arrays and reduces from minus infinity. On the extended reals a change of float format
  is the identity, a matrix product is the sum over the contracted axis on both sides, and a running maximum from the
  floor of values that are all at least the floor is their largest: so both are one function of the arguments
  (Proof/Spec.lean). No law used needs the inputs to be finite.

  Proof/KernelBlock.lean reads one grid point's stored block entry by entry, Proof/KernelArray.lean puts the 50 blocks
  together over the generated frame run, Proof/RefRun.lean reads the reference's run back, Proof/RefIsSpec.lean reads its result one operation at a time;
  here the two gathers are identified and the five claims assembled.
-/
import proofs.«171359_j52956946760189_2_alg».proof.Defs
import proofs.«171359_j52956946760189_2_alg».proof.Proof.Gen.Kernel
import proofs.«171359_j52956946760189_2_alg».proof.Proof.Gen.Kernel.Skeleton
import proofs.«171359_j52956946760189_2_alg».proof.Proof.Gen.Kernel.Launch
import proofs.«171359_j52956946760189_2_alg».proof.Proof.Gen.Kernel.Points
import proofs.«171359_j52956946760189_2_alg».proof.Proof.Gen.Kernel.Frame
import proofs.«171359_j52956946760189_2_alg».proof.Proof.Gen.KernelIdeal
import proofs.«171359_j52956946760189_2_alg».proof.Proof.Gen.KernelIdeal.Skeleton
import proofs.«171359_j52956946760189_2_alg».proof.Proof.Gen.KernelIdeal.Launch
import proofs.«171359_j52956946760189_2_alg».proof.Proof.Gen.KernelIdeal.Points
import proofs.«171359_j52956946760189_2_alg».proof.Proof.Gen.KernelIdeal.Frame
import proofs.«171359_j52956946760189_2_alg».proof.Proof.Gen.ReferenceIdeal
import proofs.«171359_j52956946760189_2_alg».proof.Proof.Gen.Pre_finite_inputs
import proofs.«171359_j52956946760189_2_alg».proof.Proof.Gen.KernelIdeal.Value
import proofs.«171359_j52956946760189_2_alg».proof.Proof.RefRun
import proofs.«171359_j52956946760189_2_alg».proof.Proof.RefReadP
import proofs.«171359_j52956946760189_2_alg».proof.Proof.KernelArray
import proofs.«171359_j52956946760189_2_alg».proof.Proof.RefIsSpec
import Idealize.ShloMosaic.Lib.StableHlo.Run
import Idealize.ShloMosaic.Adequacy
import Idealize.ShloMosaic.Init

noncomputable section

namespace Cert.Proof

open Idealize.ShloMosaic Idealize.ShloMosaic.TcCoe Idealize.SL.Sem Idealize.ShloMosaic.StableHlo

/-- The first gathered array as the region finds it is the reference's first gather of the same arguments: the same
    index arithmetic (a negative index moved up by the table's length) and the same gather. -/
theorem gathered1 (m : (ℓ : Loc Cert.KernelIdeal.nD Cert.KernelIdeal.τ Cert.KernelIdeal.sig) → Buf (Elt Ideal) ℓ) (c : Dev Cert.KernelIdeal.nD) :
    (Cert.KernelIdeal.Gen.V m c Cert.KernelIdeal.main_v6 : Cert.KernelIdeal.S50000x16x32.Idx → EReal)
      = Cert.ReferenceIdeal.ReadP.val_main_v6 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg9)) := by
  dsimp only [Cert.KernelIdeal.Gen.V, Cert.KernelIdeal.Gen.hostOps0]
  after_results
  rfl

/-- The second gathered array likewise. -/
theorem gathered2 (m : (ℓ : Loc Cert.KernelIdeal.nD Cert.KernelIdeal.τ Cert.KernelIdeal.sig) → Buf (Elt Ideal) ℓ) (c : Dev Cert.KernelIdeal.nD) :
    (Cert.KernelIdeal.Gen.V m c Cert.KernelIdeal.main_v13 : Cert.KernelIdeal.S50000x16x64.Idx → EReal)
      = Cert.ReferenceIdeal.ReadP.val_main_v39 (F := Ideal)
          (m ((c.tc : Thread Cert.KernelIdeal.nD Cert.KernelIdeal.τ).loc Cert.KernelIdeal.main_arg1))
          (m ((c.tc : Thread Cert.KernelIdeal.nD Cert.KernelIdeal.τ).loc Cert.KernelIdeal.main_arg10)) := by
  dsimp only [Cert.KernelIdeal.Gen.V, Cert.KernelIdeal.Gen.hostOps0]
  after_results
  rfl

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation: nothing to preserve. -/
theorem preserves : Cert.preserves_Kernel_KernelIdeal := trivial

/-- From memories agreeing on the arguments both programs end with the specification of the two gathered arrays, the
    own features and the parameters. -/
theorem algebraic : Cert.algebraic_KernelIdeal_ReferenceIdeal := by
  intro m ρ m' ρ' _ hagree
  refine ⟨_, Cert.KernelIdeal.Array.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9, h10⟩ := hagree c
  rw [Cert.ReferenceIdeal.ReadP.val_main_v91_eq, Cert.ReferenceIdeal.RefValue.result_eq, h0, h1, h2, h3, h4, h5, h6, h7, h8, h9, h10]
  unfold Cert.KernelIdeal.Array.Gm
  rw [gathered1 m c, gathered2 m c, Cert.KernelIdeal.Gen.V_main_arg2 m c, Cert.KernelIdeal.Gen.V_main_arg3 m c,
    Cert.KernelIdeal.Gen.V_main_arg4 m c, Cert.KernelIdeal.Gen.V_main_arg5 m c, Cert.KernelIdeal.Gen.V_main_arg6 m c,
    Cert.KernelIdeal.Gen.V_main_arg7 m c, Cert.KernelIdeal.Gen.V_main_arg8 m c]

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
